-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x2 : Shape := ⟨2, ![500000, 2]⟩
abbrev S10000000x1 : Shape := ⟨2, ![10000000, 1]⟩
abbrev S2x10000000 : Shape := ⟨2, ![2, 10000000]⟩
abbrev S4x2 : Shape := ⟨2, ![4, 2]⟩
abbrev S4 : Shape := ⟨1, ![4]⟩
abbrev S2x1 : Shape := ⟨2, ![2, 1]⟩
abbrev S2 : Shape := ⟨1, ![2]⟩
abbrev S10x6 : Shape := ⟨2, ![10, 6]⟩
abbrev S10 : Shape := ⟨1, ![10]⟩
abbrev S_ : Shape := ⟨0, ![]⟩

class Facts : Prop where
  bcast_S_S500000x2 : S_.BroadcastsInDim S500000x2 (![] : Fin 0 → Fin S500000x2.rank)
  reducesTo_S500000x2_S_d0_1 : S500000x2.ReducesTo [0, 1] S_
  h_S_ : 0 < S_.numel
  bcast_S_S10000000x1 : S_.BroadcastsInDim S10000000x1 (![] : Fin 0 → Fin S10000000x1.rank)
  reducesTo_S10000000x1_S_d0_1 : S10000000x1.ReducesTo [0, 1] S_
  bcast_S_S4x2 : S_.BroadcastsInDim S4x2 (![] : Fin 0 → Fin S4x2.rank)
  reducesTo_S4x2_S_d0_1 : S4x2.ReducesTo [0, 1] S_
  bcast_S_S4 : S_.BroadcastsInDim S4 (![] : Fin 0 → Fin S4.rank)
  reducesTo_S4_S_d0 : S4.ReducesTo [0] S_
  bcast_S_S2x1 : S_.BroadcastsInDim S2x1 (![] : Fin 0 → Fin S2x1.rank)
  reducesTo_S2x1_S_d0_1 : S2x1.ReducesTo [0, 1] S_
  bcast_S_S2 : S_.BroadcastsInDim S2 (![] : Fin 0 → Fin S2.rank)
  reducesTo_S2_S_d0 : S2.ReducesTo [0] S_
  bcast_S_S10x6 : S_.BroadcastsInDim S10x6 (![] : Fin 0 → Fin S10x6.rank)
  reducesTo_S10x6_S_d0_1 : S10x6.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S4 .f32) (main_arg9 : FVec F S10x6 .f32) (main_arg10 : FVec F S10 .f32) (main_v33 : IVec S_ 1) : IVec S_ 1 :=
  let main_v34 : FVec F S4 .f32 := Host.absf main_arg8
  let main_cst_12 : FVec F S_ .f32 := constant S_ .f32 0x7F800000#32
  let main_v35 : FVec F S4 .f32 := broadcastInDim S4 ![] bcast_S_S4 main_cst_12
  let main_v36 : IVec S4 1 := cmpf .olt main_v34 main_v35
  let main_c_13 : IVec S_ 1 := constantI S_ 1 1#1
  let main_v37 : IVec S_ 1 := (fun x v => Host.reduce IntOp.andi x v reducesTo_S4_S_d0 h_S_) main_v36 main_c_13
  let main_v38 : IVec S_ 1 := andi main_v33 main_v37
  let main_v39 : FVec F S10x6 .f32 := Host.absf main_arg9
  let main_cst_14 : FVec F S_ .f32 := constant S_ .f32 0x7F800000#32
  let main_v40 : FVec F S10x6 .f32 := broadcastInDim S10x6 ![] bcast_S_S10x6 main_cst_14
  let main_v41 : IVec S10x6 1 := cmpf .olt main_v39 main_v40
  let main_c_15 : IVec S_ 1 := constantI S_ 1 1#1
  let main_v42 : IVec S_ 1 := (fun x v => Host.reduce IntOp.andi x v reducesTo_S10x6_S_d0_1 h_S_) main_v41 main_c_15
  let main_v43 : IVec S_ 1 := andi main_v38 main_v42
  let main_v44 : FVec F S10 .f32 := Host.absf main_arg10
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  main_v48

def fn_part1 {F : FTy → Type} [FloatOps F] (main_arg5 : FVec F S2x1 .f32) (main_arg6 : FVec F S2 .f32) (main_arg7 : FVec F S4x2 .f32) (main_arg8 : FVec F S4 .f32) (main_arg9 : FVec F S10x6 .f32) (main_arg10 : FVec F S10 .f32) (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  let main_v19 : FVec F S2x1 .f32 := Host.absf main_arg5
  let main_cst_6 : FVec F S_ .f32 := constant S_ .f32 0x7F800000#32
  let main_v20 : FVec F S2x1 .f32 := broadcastInDim S2x1 ![] bcast_S_S2x1 main_cst_6
  let main_v21 : IVec S2x1 1 := cmpf .olt main_v19 main_v20
  let main_c_7 : IVec S_ 1 := constantI S_ 1 1#1
  let main_v22 : IVec S_ 1 := (fun x v => Host.reduce IntOp.andi x v reducesTo_S2x1_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_v29 : FVec F S4x2 .f32 := Host.absf main_arg7
  let main_cst_10 : FVec F S_ .f32 := constant S_ .f32 0x7F800000#32
  let main_v30 : FVec F S4x2 .f32 := broadcastInDim S4x2 ![] bcast_S_S4x2 main_cst_10
  let main_v31 : IVec S4x2 1 := cmpf .olt main_v29 main_v30
  let main_c_11 : IVec S_ 1 := constantI S_ 1 1#1
  let main_v32 : IVec S_ 1 := (fun x v => Host.reduce IntOp.andi x v reducesTo_S4x2_S_d0_1 h_S_) main_v31 main_c_11
  let main_v33 : IVec S_ 1 := andi main_v28 main_v32
  fn_part2 (F := F) main_arg8 main_arg9 main_arg10 main_v33

def fn {F : FTy → Type} [FloatOps F] (main_arg0 : FVec F S500000x2 .f32) (main_arg1 : FVec F S10000000x1 .f32) (main_arg2 : IVec S2x10000000 32) (main_arg3 : FVec F S4x2 .f32) (main_arg4 : FVec F S4 .f32) (main_arg5 : FVec F S2x1 .f32) (main_arg6 : FVec F S2 .f32) (main_arg7 : FVec F S4x2 .f32) (main_arg8 : FVec F S4 .f32) (main_arg9 : FVec F S10x6 .f32) (main_arg10 : FVec F S10 .f32) : IVec S_ 1 :=
  let main_v0 : FVec F S500000x2 .f32 := Host.absf main_arg0
  let main_cst : FVec F S_ .f32 := constant S_ .f32 0x7F800000#32
  let main_v1 : FVec F S500000x2 .f32 := broadcastInDim S500000x2 ![] bcast_S_S500000x2 main_cst
  let main_v2 : IVec S500000x2 1 := cmpf .olt main_v0 main_v1
  let main_c : IVec S_ 1 := constantI S_ 1 1#1
  let main_v3 : IVec S_ 1 := (fun x v => Host.reduce IntOp.andi x v reducesTo_S500000x2_S_d0_1 h_S_) main_v2 main_c
  let main_v4 : FVec F S10000000x1 .f32 := Host.absf main_arg1
  let main_cst_0 : FVec F S_ .f32 := constant S_ .f32 0x7F800000#32
  let main_v5 : FVec F S10000000x1 .f32 := broadcastInDim S10000000x1 ![] bcast_S_S10000000x1 main_cst_0
  let main_v6 : IVec S10000000x1 1 := cmpf .olt main_v4 main_v5
  let main_c_1 : IVec S_ 1 := constantI S_ 1 1#1
  let main_v7 : IVec S_ 1 := (fun x v => Host.reduce IntOp.andi x v reducesTo_S10000000x1_S_d0_1 h_S_) main_v6 main_c_1
  let main_v8 : IVec S_ 1 := andi main_v3 main_v7
  let main_v9 : FVec F S4x2 .f32 := Host.absf main_arg3
  let main_cst_2 : FVec F S_ .f32 := constant S_ .f32 0x7F800000#32
  let main_v10 : FVec F S4x2 .f32 := broadcastInDim S4x2 ![] bcast_S_S4x2 main_cst_2
  let main_v11 : IVec S4x2 1 := cmpf .olt main_v9 main_v10
  let main_c_3 : IVec S_ 1 := constantI S_ 1 1#1
  let main_v12 : IVec S_ 1 := (fun x v => Host.reduce IntOp.andi x v reducesTo_S4x2_S_d0_1 h_S_) main_v11 main_c_3
  let main_v13 : IVec S_ 1 := andi main_v8 main_v12
  let main_v14 : FVec F S4 .f32 := Host.absf main_arg4
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_arg5 main_arg6 main_arg7 main_arg8 main_arg9 main_arg10 main_v13 main_v16
-- ==== Kernel.lean ====
abbrev S500000x2 : Shape := ⟨2, ![500000, 2]⟩
abbrev S10000000x1 : Shape := ⟨2, ![10000000, 1]⟩
abbrev S2x10000000 : Shape := ⟨2, ![2, 10000000]⟩
abbrev S4x2 : Shape := ⟨2, ![4, 2]⟩
abbrev S4 : Shape := ⟨1, ![4]⟩
abbrev S2x1 : Shape := ⟨2, ![2, 1]⟩
abbrev S2 : Shape := ⟨1, ![2]⟩
abbrev S10x6 : Shape := ⟨2, ![10, 6]⟩
abbrev S10 : Shape := ⟨1, ![10]⟩
abbrev S1x10000000 : Shape := ⟨2, ![1, 10000000]⟩
abbrev S10000000 : Shape := ⟨1, ![10000000]⟩
abbrev S2x4 : Shape := ⟨2, ![2, 4]⟩
abbrev S500000x4 : Shape := ⟨2, ![500000, 4]⟩
abbrev S_ : Shape := ⟨0, ![]⟩
abbrev S10000000x4 : Shape := ⟨2, ![10000000, 4]⟩
abbrev S1x4 : Shape := ⟨2, ![1, 4]⟩
abbrev S1x2 : Shape := ⟨2, ![1, 2]⟩
abbrev S10000000x6 : Shape := ⟨2, ![10000000, 6]⟩
abbrev S8000x4 : Shape := ⟨2, ![8000, 4]⟩
abbrev S8000x1 : Shape := ⟨2, ![8000, 1]⟩
abbrev S8000x6 : Shape := ⟨2, ![8000, 6]⟩
abbrev S1x1 : Shape := ⟨2, ![1, 1]⟩
abbrev S8000x2 : Shape := ⟨2, ![8000, 2]⟩
abbrev S500000x6 : Shape := ⟨2, ![500000, 6]⟩
abbrev S1x10 : Shape := ⟨2, ![1, 10]⟩
abbrev S500000x14 : Shape := ⟨2, ![500000, 14]⟩
abbrev S5000x2 : Shape := ⟨2, ![5000, 2]⟩
abbrev S5000x6 : Shape := ⟨2, ![5000, 6]⟩
abbrev S5000x14 : Shape := ⟨2, ![5000, 14]⟩
abbrev S5000x1 : Shape := ⟨2, ![5000, 1]⟩
abbrev S5000x4 : Shape := ⟨2, ![5000, 4]⟩
abbrev S5000x10 : Shape := ⟨2, ![5000, 10]⟩

abbrev nBuf : Space → Nat
  | .hbm => 46
  | .vmem => 19
  | .smem => 0
  | _ => 0

abbrev bufTy : (tb : Table) → Fin (tcTables nBuf tb) → BufTy
  | .hbm, ⟨0, _⟩ => ⟨S500000x2, .f32⟩
  | .hbm, ⟨1, _⟩ => ⟨S10000000x1, .f32⟩
  | .hbm, ⟨2, _⟩ => ⟨S2x10000000, .i32⟩
  | .hbm, ⟨3, _⟩ => ⟨S4x2, .f32⟩
  | .hbm, ⟨4, _⟩ => ⟨S4, .f32⟩
  | .hbm, ⟨5, _⟩ => ⟨S2x1, .f32⟩
  | .hbm, ⟨6, _⟩ => ⟨S2, .f32⟩
  | .hbm, ⟨7, _⟩ => ⟨S4x2, .f32⟩
  | .hbm, ⟨8, _⟩ => ⟨S4, .f32⟩
  | .hbm, ⟨9, _⟩ => ⟨S10x6, .f32⟩
  | .hbm, ⟨10, _⟩ => ⟨S10, .f32⟩
  | .hbm, ⟨11, _⟩ => ⟨S1x10000000, .i32⟩
  | .hbm, ⟨12, _⟩ => ⟨S10000000, .i32⟩
  | .hbm, ⟨13, _⟩ => ⟨S1x10000000, .i32⟩
  | .hbm, ⟨14, _⟩ => ⟨S10000000, .i32⟩
  | .hbm, ⟨15, _⟩ => ⟨S2x4, .f32⟩
  | .hbm, ⟨16, _⟩ => ⟨S500000x4, .f32⟩
  | .hbm, ⟨17, _⟩ => ⟨S_, .i32⟩
  | .hbm, ⟨18, _⟩ => ⟨S10000000, .i32⟩
  | .hbm, ⟨19, _⟩ => ⟨S10000000, .i1⟩
  | .hbm, ⟨20, _⟩ => ⟨S_, .i32⟩
  | .hbm, ⟨21, _⟩ => ⟨S10000000, .i32⟩
  | .hbm, ⟨22, _⟩ => ⟨S10000000, .i32⟩
  | .hbm, ⟨23, _⟩ => ⟨S10000000, .i32⟩
  | .hbm, ⟨24, _⟩ => ⟨S10000000x1, .i32⟩
  | .hbm, ⟨25, _⟩ => ⟨S10000000x4, .f32⟩
  | .hbm, ⟨26, _⟩ => ⟨S_, .i32⟩
  | .hbm, ⟨27, _⟩ => ⟨S10000000, .i32⟩
  | .hbm, ⟨28, _⟩ => ⟨S10000000, .i1⟩
  | .hbm, ⟨29, _⟩ => ⟨S_, .i32⟩
  | .hbm, ⟨30, _⟩ => ⟨S10000000, .i32⟩
  | .hbm, ⟨31, _⟩ => ⟨S10000000, .i32⟩
  | .hbm, ⟨32, _⟩ => ⟨S10000000, .i32⟩
  | .hbm, ⟨33, _⟩ => ⟨S10000000x1, .i32⟩
  | .hbm, ⟨34, _⟩ => ⟨S10000000x4, .f32⟩
  | .hbm, ⟨35, _⟩ => ⟨S10000000x4, .f32⟩
  | .hbm, ⟨36, _⟩ => ⟨S1x4, .f32⟩
  | .hbm, ⟨37, _⟩ => ⟨S1x2, .f32⟩
  | .hbm, ⟨38, _⟩ => ⟨S10000000x6, .f32⟩
  | .hbm, ⟨39, _⟩ => ⟨S_, .f32⟩
  | .hbm, ⟨40, _⟩ => ⟨S500000x6, .f32⟩
  | .hbm, ⟨41, _⟩ => ⟨S10000000x1, .i32⟩
  | .hbm, ⟨42, _⟩ => ⟨S500000x6, .f32⟩
  | .hbm, ⟨43, _⟩ => ⟨S1x4, .f32⟩
  | .hbm, ⟨44, _⟩ => ⟨S1x10, .f32⟩
  | .hbm, ⟨45, _⟩ => ⟨S500000x14, .f32⟩
  | .local _ .vmem, ⟨0, _⟩ => ⟨S8000x4, .f32⟩
  | .local _ .vmem, ⟨1, _⟩ => ⟨S8000x4, .f32⟩
  | .local _ .vmem, ⟨2, _⟩ => ⟨S8000x1, .f32⟩
  | .local _ .vmem, ⟨3, _⟩ => ⟨S8000x1, .f32⟩
  | .local _ .vmem, ⟨4, _⟩ => ⟨S1x4, .f32⟩
  | .local _ .vmem, ⟨5, _⟩ => ⟨S2x1, .f32⟩
  | .local _ .vmem, ⟨6, _⟩ => ⟨S1x2, .f32⟩
  | .local _ .vmem, ⟨7, _⟩ => ⟨S8000x6, .f32⟩
  | .local _ .vmem, ⟨8, _⟩ => ⟨S8000x6, .f32⟩
  | .local _ .vmem, ⟨9, _⟩ => ⟨S5000x2, .f32⟩
  | .local _ .vmem, ⟨10, _⟩ => ⟨S5000x2, .f32⟩
  | .local _ .vmem, ⟨11, _⟩ => ⟨S5000x6, .f32⟩
  | .local _ .vmem, ⟨12, _⟩ => ⟨S5000x6, .f32⟩
  | .local _ .vmem, ⟨13, _⟩ => ⟨S4x2, .f32⟩
  | .local _ .vmem, ⟨14, _⟩ => ⟨S1x4, .f32⟩
  | .local _ .vmem, ⟨15, _⟩ => ⟨S10x6, .f32⟩
  | .local _ .vmem, ⟨16, _⟩ => ⟨S1x10, .f32⟩
  | .local _ .vmem, ⟨17, _⟩ => ⟨S5000x14, .f32⟩
  | .local _ .vmem, ⟨18, _⟩ => ⟨S5000x14, .f32⟩
  | _, _ => ⟨S500000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_1 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨1, ![1250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x6 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x6 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S10x6 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x10 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x14 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x10000000_S1x10000000_0_0 : S2x10000000.Slices ![0, 0] S1x10000000
  shapeCasts_S1x10000000_S10000000 : S1x10000000.ShapeCasts S10000000
  slices_S2x10000000_S1x10000000_1_0 : S2x10000000.Slices ![1, 0] S1x10000000
  transposes_S4x2_S2x4_1_0 : S4x2.Transposes [1, 0] S2x4
  bcast_S_S10000000 : S_.BroadcastsInDim S10000000 (![] : Fin 0 → Fin S10000000.rank)
  bcast_S10000000_S10000000x1_0 : S10000000.BroadcastsInDim S10000000x1 (![0] : Fin 1 → Fin S10000000x1.rank)
  shapeCasts_S4_S1x4 : S4.ShapeCasts S1x4
  shapeCasts_S2_S1x2 : S2.ShapeCasts S1x2
  inb_S8000x4_S8000x4_0_0 : ∀ a, (![0, 0] : Fin 2 → Nat) a + S8000x4.size a ≤ S8000x4.size a
  h_S8000x4 : 0 < S8000x4.numel
  shapeCasts_S8000x4_S8000x4 : S8000x4.ShapeCasts S8000x4
  inb_S8000x1_S8000x1_0_0 : ∀ a, (![0, 0] : Fin 2 → Nat) a + S8000x1.size a ≤ S8000x1.size a
  h_S8000x1 : 0 < S8000x1.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  inb_S2x1_S2x1_0_0 : ∀ a, (![0, 0] : Fin 2 → Nat) a + S2x1.size a ≤ S2x1.size a
  h_S2x1 : 0 < S2x1.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x4_S8000x4 : S1x4.Broadcasts S8000x4
  slices_S2x1_o0_0_S1x1 : S2x1.Slices ![0, 0] S1x1
  broadcasts_S1x1_S8000x1 : S1x1.Broadcasts S8000x1
  slices_S1x2_o0_0_S1x1 : S1x2.Slices ![0, 0] S1x1
  slices_S2x1_o1_0_S1x1 : S2x1.Slices ![1, 0] S1x1
  slices_S1x2_o0_1_S1x1 : S1x2.Slices ![0, 1] S1x1
  concatenates_S8000x1_S8000x1_S8000x2_d1 : Shape.Concatenates [S8000x1, S8000x1] S8000x2 1
  concatenates_S8000x2_S8000x4_S8000x6_d1 : Shape.Concatenates [S8000x2, S8000x4] S8000x6 1
  inb_S8000x6_S8000x6_0_0 : ∀ a, (![0, 0] : Fin 2 → Nat) a + S8000x6.size a ≤ S8000x6.size a
  h_S8000x6 : 0 < S8000x6.numel
  bcast_S_S500000x6 : S_.BroadcastsInDim S500000x6 (![] : Fin 0 → Fin S500000x6.rank)
  shapeCasts_S10_S1x10 : S10.ShapeCasts S1x10
  inb_S5000x2_S5000x2_0_0 : ∀ a, (![0, 0] : Fin 2 → Nat) a + S5000x2.size a ≤ S5000x2.size a
  h_S5000x2 : 0 < S5000x2.numel
  inb_S5000x6_S5000x6_0_0 : ∀ a, (![0, 0] : Fin 2 → Nat) a + S5000x6.size a ≤ S5000x6.size a
  h_S5000x6 : 0 < S5000x6.numel
  shapeCasts_S5000x6_S5000x6 : S5000x6.ShapeCasts S5000x6
  inb_S4x2_S4x2_0_0 : ∀ a, (![0, 0] : Fin 2 → Nat) a + S4x2.size a ≤ S4x2.size a
  h_S4x2 : 0 < S4x2.numel
  inb_S10x6_S10x6_0_0 : ∀ a, (![0, 0] : Fin 2 → Nat) a + S10x6.size a ≤ S10x6.size a
  h_S10x6 : 0 < S10x6.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  slices_S5000x2_o0_0_S5000x1 : S5000x2.Slices ![0, 0] S5000x1
  slices_S4x2_o0_0_S1x1 : S4x2.Slices ![0, 0] S1x1
  broadcasts_S1x1_S5000x1 : S1x1.Broadcasts S5000x1
  slices_S1x4_o0_0_S1x1 : S1x4.Slices ![0, 0] S1x1
  slices_S5000x2_o0_1_S5000x1 : S5000x2.Slices ![0, 1] S5000x1
  slices_S4x2_o0_1_S1x1 : S4x2.Slices ![0, 1] S1x1
  slices_S4x2_o1_0_S1x1 : S4x2.Slices ![1, 0] S1x1
  slices_S1x4_o0_1_S1x1 : S1x4.Slices ![0, 1] S1x1
  slices_S4x2_o1_1_S1x1 : S4x2.Slices ![1, 1] S1x1
  slices_S4x2_o2_0_S1x1 : S4x2.Slices ![2, 0] S1x1
  slices_S1x4_o0_2_S1x1 : S1x4.Slices ![0, 2] S1x1
  slices_S4x2_o2_1_S1x1 : S4x2.Slices ![2, 1] S1x1
  slices_S4x2_o3_0_S1x1 : S4x2.Slices ![3, 0] S1x1
  slices_S1x4_o0_3_S1x1 : S1x4.Slices ![0, 3] S1x1
  slices_S4x2_o3_1_S1x1 : S4x2.Slices ![3, 1] S1x1
  concatenates_S5000x1_S5000x1_S5000x1_S5000x1_S5000x4_d1 : Shape.Concatenates [S5000x1, S5000x1, S5000x1, S5000x1] S5000x4 1
  slices_S5000x6_o0_0_S5000x1 : S5000x6.Slices ![0, 0] S5000x1
  slices_S10x6_o0_0_S1x1 : S10x6.Slices ![0, 0] S1x1
  slices_S1x10_o0_0_S1x1 : S1x10.Slices ![0, 0] S1x1
  slices_S5000x6_o0_1_S5000x1 : S5000x6.Slices ![0, 1] S5000x1
  slices_S10x6_o0_1_S1x1 : S10x6.Slices ![0, 1] S1x1
  slices_S5000x6_o0_2_S5000x1 : S5000x6.Slices ![0, 2] S5000x1
  slices_S10x6_o0_2_S1x1 : S10x6.Slices ![0, 2] S1x1
  slices_S5000x6_o0_3_S5000x1 : S5000x6.Slices ![0, 3] S5000x1
  slices_S10x6_o0_3_S1x1 : S10x6.Slices ![0, 3] S1x1
  slices_S5000x6_o0_4_S5000x1 : S5000x6.Slices ![0, 4] S5000x1
  slices_S10x6_o0_4_S1x1 : S10x6.Slices ![0, 4] S1x1
  slices_S5000x6_o0_5_S5000x1 : S5000x6.Slices ![0, 5] S5000x1
  slices_S10x6_o0_5_S1x1 : S10x6.Slices ![0, 5] S1x1
  slices_S10x6_o1_0_S1x1 : S10x6.Slices ![1, 0] S1x1
  slices_S1x10_o0_1_S1x1 : S1x10.Slices ![0, 1] S1x1
  slices_S10x6_o1_1_S1x1 : S10x6.Slices ![1, 1] S1x1
  slices_S10x6_o1_2_S1x1 : S10x6.Slices ![1, 2] S1x1
  slices_S10x6_o1_3_S1x1 : S10x6.Slices ![1, 3] S1x1
  slices_S10x6_o1_4_S1x1 : S10x6.Slices ![1, 4] S1x1
  slices_S10x6_o1_5_S1x1 : S10x6.Slices ![1, 5] S1x1
  slices_S10x6_o2_0_S1x1 : S10x6.Slices ![2, 0] S1x1
  slices_S1x10_o0_2_S1x1 : S1x10.Slices ![0, 2] S1x1
  slices_S10x6_o2_1_S1x1 : S10x6.Slices ![2, 1] S1x1
  slices_S10x6_o2_2_S1x1 : S10x6.Slices ![2, 2] S1x1
  slices_S10x6_o2_3_S1x1 : S10x6.Slices ![2, 3] S1x1
  slices_S10x6_o2_4_S1x1 : S10x6.Slices ![2, 4] S1x1
  slices_S10x6_o2_5_S1x1 : S10x6.Slices ![2, 5] S1x1
  slices_S10x6_o3_0_S1x1 : S10x6.Slices ![3, 0] S1x1
  slices_S1x10_o0_3_S1x1 : S1x10.Slices ![0, 3] S1x1
  slices_S10x6_o3_1_S1x1 : S10x6.Slices ![3, 1] S1x1
  slices_S10x6_o3_2_S1x1 : S10x6.Slices ![3, 2] S1x1
  slices_S10x6_o3_3_S1x1 : S10x6.Slices ![3, 3] S1x1
  slices_S10x6_o3_4_S1x1 : S10x6.Slices ![3, 4] S1x1
  slices_S10x6_o3_5_S1x1 : S10x6.Slices ![3, 5] S1x1
  slices_S10x6_o4_0_S1x1 : S10x6.Slices ![4, 0] S1x1
  slices_S1x10_o0_4_S1x1 : S1x10.Slices ![0, 4] S1x1
  slices_S10x6_o4_1_S1x1 : S10x6.Slices ![4, 1] S1x1
  slices_S10x6_o4_2_S1x1 : S10x6.Slices ![4, 2] S1x1
  slices_S10x6_o4_3_S1x1 : S10x6.Slices ![4, 3] S1x1
  slices_S10x6_o4_4_S1x1 : S10x6.Slices ![4, 4] S1x1
  slices_S10x6_o4_5_S1x1 : S10x6.Slices ![4, 5] S1x1
  slices_S10x6_o5_0_S1x1 : S10x6.Slices ![5, 0] S1x1
  slices_S1x10_o0_5_S1x1 : S1x10.Slices ![0, 5] S1x1
  slices_S10x6_o5_1_S1x1 : S10x6.Slices ![5, 1] S1x1
  slices_S10x6_o5_2_S1x1 : S10x6.Slices ![5, 2] S1x1
  slices_S10x6_o5_3_S1x1 : S10x6.Slices ![5, 3] S1x1
  slices_S10x6_o5_4_S1x1 : S10x6.Slices ![5, 4] S1x1
  slices_S10x6_o5_5_S1x1 : S10x6.Slices ![5, 5] S1x1
  slices_S10x6_o6_0_S1x1 : S10x6.Slices ![6, 0] S1x1
  slices_S1x10_o0_6_S1x1 : S1x10.Slices ![0, 6] S1x1
  slices_S10x6_o6_1_S1x1 : S10x6.Slices ![6, 1] S1x1
  slices_S10x6_o6_2_S1x1 : S10x6.Slices ![6, 2] S1x1
  slices_S10x6_o6_3_S1x1 : S10x6.Slices ![6, 3] S1x1
  slices_S10x6_o6_4_S1x1 : S10x6.Slices ![6, 4] S1x1
  slices_S10x6_o6_5_S1x1 : S10x6.Slices ![6, 5] S1x1
  slices_S10x6_o7_0_S1x1 : S10x6.Slices ![7, 0] S1x1
  slices_S1x10_o0_7_S1x1 : S1x10.Slices ![0, 7] S1x1
  slices_S10x6_o7_1_S1x1 : S10x6.Slices ![7, 1] S1x1
  slices_S10x6_o7_2_S1x1 : S10x6.Slices ![7, 2] S1x1
  slices_S10x6_o7_3_S1x1 : S10x6.Slices ![7, 3] S1x1
  slices_S10x6_o7_4_S1x1 : S10x6.Slices ![7, 4] S1x1
  slices_S10x6_o7_5_S1x1 : S10x6.Slices ![7, 5] S1x1
  slices_S10x6_o8_0_S1x1 : S10x6.Slices ![8, 0] S1x1
  slices_S1x10_o0_8_S1x1 : S1x10.Slices ![0, 8] S1x1
  slices_S10x6_o8_1_S1x1 : S10x6.Slices ![8, 1] S1x1
  slices_S10x6_o8_2_S1x1 : S10x6.Slices ![8, 2] S1x1
  slices_S10x6_o8_3_S1x1 : S10x6.Slices ![8, 3] S1x1
  slices_S10x6_o8_4_S1x1 : S10x6.Slices ![8, 4] S1x1
  slices_S10x6_o8_5_S1x1 : S10x6.Slices ![8, 5] S1x1
  slices_S10x6_o9_0_S1x1 : S10x6.Slices ![9, 0] S1x1
  slices_S1x10_o0_9_S1x1 : S1x10.Slices ![0, 9] S1x1
  slices_S10x6_o9_1_S1x1 : S10x6.Slices ![9, 1] S1x1
  slices_S10x6_o9_2_S1x1 : S10x6.Slices ![9, 2] S1x1
  slices_S10x6_o9_3_S1x1 : S10x6.Slices ![9, 3] S1x1
  slices_S10x6_o9_4_S1x1 : S10x6.Slices ![9, 4] S1x1
  slices_S10x6_o9_5_S1x1 : S10x6.Slices ![9, 5] S1x1
  concatenates_S5000x1_S5000x1_S5000x1_S5000x1_S5000x1_S5000x1_S5000x1_S5000x1_S5000x1_S5000x1_S5000x10_d1 : Shape.Concatenates [S5000x1, S5000x1, S5000x1, S5000x1, S5000x1, S5000x1, S5000x1, S5000x1, S5000x1, S5000x1] S5000x10 1
  concatenates_S5000x4_S5000x10_S5000x14_d1 : Shape.Concatenates [S5000x4, S5000x10] S5000x14 1
  inb_S5000x14_S5000x14_0_0 : ∀ a, (![0, 0] : Fin 2 → Nat) a + S5000x14.size a ≤ S5000x14.size a
  h_S5000x14 : 0 < S5000x14.numel
  dot_S500000x2_S2x4_S500000x4_1_0_0_1_n_n_wf : DotDims.WF S500000x2 S2x4 S500000x4 [1] [0] [0] [1] [] []
  gather_S500000x4_S10000000x1_S10000000x4_1_0_n_n_0_1_14_wf : GatherDims.WF S500000x4 S10000000x1 S10000000x4 [1] [0] [] [0] [] 1 ![1, 4]
  scatter_S500000x6_S10000000x1_S10000000x6_1_0_0_1_wf : ScatterDims.WF S500000x6 S10000000x1 S10000000x6 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x4.size a ≤ S10000000x4.size a
  hwx0_0 : ∀ i : grid0.Coords, EltTy.bits .f32 = 32 ∨ (Rect.block (s := S10000000x4) S8000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x1.size a ≤ S10000000x1.size a
  hwx0_1 : ∀ i : grid0.Coords, EltTy.bits .f32 = 32 ∨ (Rect.block (s := S10000000x1) S8000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4.size a ≤ S1x4.size a
  hwx0_2 : ∀ i : grid0.Coords, EltTy.bits .f32 = 32 ∨ (Rect.block (s := S1x4) S1x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x1.size a ≤ S2x1.size a
  hwx0_3 : ∀ i : grid0.Coords, EltTy.bits .f32 = 32 ∨ (Rect.block (s := S2x1) S2x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2.size a ≤ S1x2.size a
  hwx0_4 : ∀ i : grid0.Coords, EltTy.bits .f32 = 32 ∨ (Rect.block (s := S1x2) S1x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x6.size a ≤ S10000000x6.size a
  hwx0_5 : ∀ i : grid0.Coords, EltTy.bits .f32 = 32 ∨ (Rect.block (s := S10000000x6) S8000x6.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x2.size a ≤ S500000x2.size a
  hwx1_0 : ∀ i : grid1.Coords, EltTy.bits .f32 = 32 ∨ (Rect.block (s := S500000x2) S5000x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x6.size a ≤ S500000x6.size a
  hwx1_1 : ∀ i : grid1.Coords, EltTy.bits .f32 = 32 ∨ (Rect.block (s := S500000x6) S5000x6.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x2.size a ≤ S4x2.size a
  hwx1_2 : ∀ i : grid1.Coords, EltTy.bits .f32 = 32 ∨ (Rect.block (s := S4x2) S4x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4.size a ≤ S1x4.size a
  hwx1_3 : ∀ i : grid1.Coords, EltTy.bits .f32 = 32 ∨ (Rect.block (s := S1x4) S1x4.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S10x6.size a ≤ S10x6.size a
  hwx1_4 : ∀ i : grid1.Coords, EltTy.bits .f32 = 32 ∨ (Rect.block (s := S10x6) S10x6.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x10.size a ≤ S1x10.size a
  hwx1_5 : ∀ i : grid1.Coords, EltTy.bits .f32 = 32 ∨ (Rect.block (s := S1x10) S1x10.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x14.size a ≤ S500000x14.size a
  hwx1_6 : ∀ i : grid1.Coords, EltTy.bits .f32 = 32 ∨ (Rect.block (s := S500000x14) S5000x14.size (cc1_transform_6 i) (hinb1_6 i)).WholeWords (EltTy.packing .f32)

variable [Facts₀]

def dot_S500000x2_S2x4_S500000x4_1_0_0_1_n_n : DotDims S500000x2 S2x4 S500000x4 where
  lhsContracting := [1]
  rhsContracting := [0]
  lhsNonContracting := [0]
  rhsNonContracting := [1]
  lhsBatch := []
  rhsBatch := []
  wf := dot_S500000x2_S2x4_S500000x4_1_0_0_1_n_n_wf
def gather_S500000x4_S10000000x1_S10000000x4_1_0_n_n_0_1_14 : GatherDims S500000x4 S10000000x1 S10000000x4 where
  offsetDims := [1]
  collapsedSliceDims := [0]
  operandBatchingDims := []
  startIndicesBatchingDims := []
  startIndexMap := [0]
  indexVectorDim := 1
  sliceSizes := ![1, 4]
  wf := gather_S500000x4_S10000000x1_S10000000x4_1_0_n_n_0_1_14_wf
def scatter_S500000x6_S10000000x1_S10000000x6_1_0_0_1 : ScatterDims S500000x6 S10000000x1 S10000000x6 where
  updateWindowDims := [1]
  insertedWindowDims := [0]
  scatterDimsToOperandDims := [0]
  indexVectorDim := 1
  wf := scatter_S500000x6_S10000000x1_S10000000x6_1_0_0_1_wf

abbrev win0_0 : Pipeline.Window sig grid0 :=
  Pipeline.Window.ofSpec (Memref.whole main_v20) S8000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S2x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S8000x6.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x6.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S4x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x4.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S10x6.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S1x10.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S5000x14.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S500000x2 : Shape := ⟨2, ![500000, 2]⟩
abbrev S10000000x1 : Shape := ⟨2, ![10000000, 1]⟩
abbrev S2x10000000 : Shape := ⟨2, ![2, 10000000]⟩
abbrev S4x2 : Shape := ⟨2, ![4, 2]⟩
abbrev S4 : Shape := ⟨1, ![4]⟩
abbrev S2x1 : Shape := ⟨2, ![2, 1]⟩
abbrev S2 : Shape := ⟨1, ![2]⟩
abbrev S10x6 : Shape := ⟨2, ![10, 6]⟩
abbrev S10 : Shape := ⟨1, ![10]⟩
abbrev S1x10000000 : Shape := ⟨2, ![1, 10000000]⟩
abbrev S10000000 : Shape := ⟨1, ![10000000]⟩
abbrev S1x2 : Shape := ⟨2, ![1, 2]⟩
abbrev S10000000x2 : Shape := ⟨2, ![10000000, 2]⟩
abbrev S_ : Shape := ⟨0, ![]⟩
abbrev S2x4 : Shape := ⟨2, ![2, 4]⟩
abbrev S10000000x4 : Shape := ⟨2, ![10000000, 4]⟩
abbrev S1x4 : Shape := ⟨2, ![1, 4]⟩
abbrev S10000000x6 : Shape := ⟨2, ![10000000, 6]⟩
abbrev S500000x4 : Shape := ⟨2, ![500000, 4]⟩
abbrev S500000x6 : Shape := ⟨2, ![500000, 6]⟩
abbrev S6x10 : Shape := ⟨2, ![6, 10]⟩
abbrev S500000x10 : Shape := ⟨2, ![500000, 10]⟩
abbrev S1x10 : Shape := ⟨2, ![1, 10]⟩
abbrev S500000x14 : Shape := ⟨2, ![500000, 14]⟩

abbrev nBuf : Space → Nat
  | .hbm => 66
  | .vmem => 0
  | .smem => 0
  | _ => 0

abbrev bufTy : (tb : Table) → Fin (tcTables nBuf tb) → BufTy
  | .hbm, ⟨0, _⟩ => ⟨S500000x2, .f32⟩
  | .hbm, ⟨1, _⟩ => ⟨S10000000x1, .f32⟩
  | .hbm, ⟨2, _⟩ => ⟨S2x10000000, .i32⟩
  | .hbm, ⟨3, _⟩ => ⟨S4x2, .f32⟩
  | .hbm, ⟨4, _⟩ => ⟨S4, .f32⟩
  | .hbm, ⟨5, _⟩ => ⟨S2x1, .f32⟩
  | .hbm, ⟨6, _⟩ => ⟨S2, .f32⟩
  | .hbm, ⟨7, _⟩ => ⟨S4x2, .f32⟩
  | .hbm, ⟨8, _⟩ => ⟨S4, .f32⟩
  | .hbm, ⟨9, _⟩ => ⟨S10x6, .f32⟩
  | .hbm, ⟨10, _⟩ => ⟨S10, .f32⟩
  | .hbm, ⟨11, _⟩ => ⟨S1x10000000, .i32⟩
  | .hbm, ⟨12, _⟩ => ⟨S10000000, .i32⟩
  | .hbm, ⟨13, _⟩ => ⟨S1x10000000, .i32⟩
  | .hbm, ⟨14, _⟩ => ⟨S10000000, .i32⟩
  | .hbm, ⟨15, _⟩ => ⟨S1x2, .f32⟩
  | .hbm, ⟨16, _⟩ => ⟨S10000000x2, .f32⟩
  | .hbm, ⟨17, _⟩ => ⟨S1x2, .f32⟩
  | .hbm, ⟨18, _⟩ => ⟨S10000000x2, .f32⟩
  | .hbm, ⟨19, _⟩ => ⟨S10000000x2, .f32⟩
  | .hbm, ⟨20, _⟩ => ⟨S_, .i32⟩
  | .hbm, ⟨21, _⟩ => ⟨S10000000, .i32⟩
  | .hbm, ⟨22, _⟩ => ⟨S10000000, .i1⟩
  | .hbm, ⟨23, _⟩ => ⟨S_, .i32⟩
  | .hbm, ⟨24, _⟩ => ⟨S10000000, .i32⟩
  | .hbm, ⟨25, _⟩ => ⟨S10000000, .i32⟩
  | .hbm, ⟨26, _⟩ => ⟨S10000000, .i32⟩
  | .hbm, ⟨27, _⟩ => ⟨S10000000x1, .i32⟩
  | .hbm, ⟨28, _⟩ => ⟨S10000000x2, .f32⟩
  | .hbm, ⟨29, _⟩ => ⟨S_, .i32⟩
  | .hbm, ⟨30, _⟩ => ⟨S10000000, .i32⟩
  | .hbm, ⟨31, _⟩ => ⟨S10000000, .i1⟩
  | .hbm, ⟨32, _⟩ => ⟨S_, .i32⟩
  | .hbm, ⟨33, _⟩ => ⟨S10000000, .i32⟩
  | .hbm, ⟨34, _⟩ => ⟨S10000000, .i32⟩
  | .hbm, ⟨35, _⟩ => ⟨S10000000, .i32⟩
  | .hbm, ⟨36, _⟩ => ⟨S10000000x1, .i32⟩
  | .hbm, ⟨37, _⟩ => ⟨S10000000x2, .f32⟩
  | .hbm, ⟨38, _⟩ => ⟨S10000000x2, .f32⟩
  | .hbm, ⟨39, _⟩ => ⟨S2x4, .f32⟩
  | .hbm, ⟨40, _⟩ => ⟨S10000000x4, .f32⟩
  | .hbm, ⟨41, _⟩ => ⟨S1x4, .f32⟩
  | .hbm, ⟨42, _⟩ => ⟨S10000000x4, .f32⟩
  | .hbm, ⟨43, _⟩ => ⟨S10000000x4, .f32⟩
  | .hbm, ⟨44, _⟩ => ⟨S10000000x6, .f32⟩
  | .hbm, ⟨45, _⟩ => ⟨S_, .f32⟩
  | .hbm, ⟨46, _⟩ => ⟨S10000000x6, .f32⟩
  | .hbm, ⟨47, _⟩ => ⟨S10000000x6, .f32⟩
  | .hbm, ⟨48, _⟩ => ⟨S2x4, .f32⟩
  | .hbm, ⟨49, _⟩ => ⟨S500000x4, .f32⟩
  | .hbm, ⟨50, _⟩ => ⟨S1x4, .f32⟩
  | .hbm, ⟨51, _⟩ => ⟨S500000x4, .f32⟩
  | .hbm, ⟨52, _⟩ => ⟨S500000x4, .f32⟩
  | .hbm, ⟨53, _⟩ => ⟨S_, .f32⟩
  | .hbm, ⟨54, _⟩ => ⟨S500000x6, .f32⟩
  | .hbm, ⟨55, _⟩ => ⟨S10000000x1, .i32⟩
  | .hbm, ⟨56, _⟩ => ⟨S500000x6, .f32⟩
  | .hbm, ⟨57, _⟩ => ⟨S6x10, .f32⟩
  | .hbm, ⟨58, _⟩ => ⟨S500000x10, .f32⟩
  | .hbm, ⟨59, _⟩ => ⟨S1x10, .f32⟩
  | .hbm, ⟨60, _⟩ => ⟨S500000x10, .f32⟩
  | .hbm, ⟨61, _⟩ => ⟨S500000x10, .f32⟩
  | .hbm, ⟨62, _⟩ => ⟨S500000x14, .f32⟩
  | .hbm, ⟨63, _⟩ => ⟨S_, .f32⟩
  | .hbm, ⟨64, _⟩ => ⟨S500000x14, .f32⟩
  | .hbm, ⟨65, _⟩ => ⟨S500000x14, .f32⟩
  | _, _ => ⟨S500000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_call0_cst : Ref sig .tc := ⟨.hbm, 45, rfl⟩
abbrev main_call0_v0 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_call1_cst : Ref sig .tc := ⟨.hbm, 63, rfl⟩
abbrev main_call1_v0 : Ref sig .tc := ⟨.hbm, 64, rfl⟩
abbrev main_v45 : Ref sig .tc := ⟨.hbm, 65, rfl⟩

abbrev nD : Nat := 1
abbrev τ : Topo := Topo.v7x

variable {F : FTy → Type} [FloatOps F]

class Facts₀ : Prop where
  slices_S2x10000000_S1x10000000_0_0 : S2x10000000.Slices ![0, 0] S1x10000000
  shapeCasts_S1x10000000_S10000000 : S1x10000000.ShapeCasts S10000000
  slices_S2x10000000_S1x10000000_1_0 : S2x10000000.Slices ![1, 0] S1x10000000
  transposes_S2x1_S1x2_1_0 : S2x1.Transposes [1, 0] S1x2
  bcast_S2_S1x2_1 : S2.BroadcastsInDim S1x2 (![1] : Fin 1 → Fin S1x2.rank)
  bcast_S1x2_S10000000x2_0_1 : S1x2.BroadcastsInDim S10000000x2 (![0, 1] : Fin 2 → Fin S10000000x2.rank)
  bcast_S_S10000000 : S_.BroadcastsInDim S10000000 (![] : Fin 0 → Fin S10000000.rank)
  bcast_S10000000_S10000000x1_0 : S10000000.BroadcastsInDim S10000000x1 (![0] : Fin 1 → Fin S10000000x1.rank)
  transposes_S4x2_S2x4_1_0 : S4x2.Transposes [1, 0] S2x4
  bcast_S4_S1x4_1 : S4.BroadcastsInDim S1x4 (![1] : Fin 1 → Fin S1x4.rank)
  bcast_S1x4_S10000000x4_0_1 : S1x4.BroadcastsInDim S10000000x4 (![0, 1] : Fin 2 → Fin S10000000x4.rank)
  concatenates_S10000000x2_S10000000x4_S10000000x6_d1 : Shape.Concatenates [S10000000x2, S10000000x4] S10000000x6 1
  bcast_S_S10000000x6 : S_.BroadcastsInDim S10000000x6 (![] : Fin 0 → Fin S10000000x6.rank)
  bcast_S1x4_S500000x4_0_1 : S1x4.BroadcastsInDim S500000x4 (![0, 1] : Fin 2 → Fin S500000x4.rank)
  bcast_S_S500000x6 : S_.BroadcastsInDim S500000x6 (![] : Fin 0 → Fin S500000x6.rank)
  transposes_S10x6_S6x10_1_0 : S10x6.Transposes [1, 0] S6x10
  bcast_S10_S1x10_1 : S10.BroadcastsInDim S1x10 (![1] : Fin 1 → Fin S1x10.rank)
  bcast_S1x10_S500000x10_0_1 : S1x10.BroadcastsInDim S500000x10 (![0, 1] : Fin 2 → Fin S500000x10.rank)
  concatenates_S500000x4_S500000x10_S500000x14_d1 : Shape.Concatenates [S500000x4, S500000x10] S500000x14 1
  bcast_S_S500000x14 : S_.BroadcastsInDim S500000x14 (![] : Fin 0 → Fin S500000x14.rank)
  dot_S10000000x1_S1x2_S10000000x2_1_0_0_1_n_n_wf : DotDims.WF S10000000x1 S1x2 S10000000x2 [1] [0] [0] [1] [] []
  gather_S500000x2_S10000000x1_S10000000x2_1_0_n_n_0_1_12_wf : GatherDims.WF S500000x2 S10000000x1 S10000000x2 [1] [0] [] [0] [] 1 ![1, 2]
  dot_S10000000x2_S2x4_S10000000x4_1_0_0_1_n_n_wf : DotDims.WF S10000000x2 S2x4 S10000000x4 [1] [0] [0] [1] [] []
  dot_S500000x2_S2x4_S500000x4_1_0_0_1_n_n_wf : DotDims.WF S500000x2 S2x4 S500000x4 [1] [0] [0] [1] [] []
  scatter_S500000x6_S10000000x1_S10000000x6_1_0_0_1_wf : ScatterDims.WF S500000x6 S10000000x1 S10000000x6 [1] [0] [0] 1
  dot_S500000x6_S6x10_S500000x10_1_0_0_1_n_n_wf : DotDims.WF S500000x6 S6x10 S500000x10 [1] [0] [0] [1] [] []

variable [Facts₀]

def dot_S10000000x1_S1x2_S10000000x2_1_0_0_1_n_n : DotDims S10000000x1 S1x2 S10000000x2 where
  lhsContracting := [1]
  rhsContracting := [0]
  lhsNonContracting := [0]
  rhsNonContracting := [1]
  lhsBatch := []
  rhsBatch := []
  wf := dot_S10000000x1_S1x2_S10000000x2_1_0_0_1_n_n_wf
def gather_S500000x2_S10000000x1_S10000000x2_1_0_n_n_0_1_12 : GatherDims S500000x2 S10000000x1 S10000000x2 where
  offsetDims := [1]
  collapsedSliceDims := [0]
  operandBatchingDims := []
  startIndicesBatchingDims := []
  startIndexMap := [0]
  indexVectorDim := 1
  sliceSizes := ![1, 2]
  wf := gather_S500000x2_S10000000x1_S10000000x2_1_0_n_n_0_1_12_wf
def dot_S10000000x2_S2x4_S10000000x4_1_0_0_1_n_n : DotDims S10000000x2 S2x4 S10000000x4 where
  lhsContracting := [1]
  rhsContracting := [0]
  lhsNonContracting := [0]
  rhsNonContracting := [1]
  lhsBatch := []
  rhsBatch := []
  wf := dot_S10000000x2_S2x4_S10000000x4_1_0_0_1_n_n_wf
def dot_S500000x2_S2x4_S500000x4_1_0_0_1_n_n : DotDims S500000x2 S2x4 S500000x4 where
  lhsContracting := [1]
  rhsContracting := [0]
  lhsNonContracting := [0]
  rhsNonContracting := [1]
  lhsBatch := []
  rhsBatch := []
  wf := dot_S500000x2_S2x4_S500000x4_1_0_0_1_n_n_wf
def scatter_S500000x6_S10000000x1_S10000000x6_1_0_0_1 : ScatterDims S500000x6 S10000000x1 S10000000x6 where
  updateWindowDims := [1]
  insertedWindowDims := [0]
  scatterDimsToOperandDims := [0]
  indexVectorDim := 1
  wf := scatter_S500000x6_S10000000x1_S10000000x6_1_0_0_1_wf
def dot_S500000x6_S6x10_S500000x10_1_0_0_1_n_n : DotDims S500000x6 S6x10 S500000x10 where
  lhsContracting := [1]
  rhsContracting := [0]
  lhsNonContracting := [0]
  rhsNonContracting := [1]
  lhsBatch := []
  rhsBatch := []
  wf := dot_S500000x6_S6x10_S500000x10_1_0_0_1_n_n_wf

class Facts : Prop extends Facts₀ where

variable [Facts]
-- ==== Proof.KernelRun.lean ====
/-
  The idealized kernel's run with its two result arrays named.

  The program is two launches with host operations before and between them. Its run passes through five memory
  states: the launch memory, the memory after the first stretch of host operations, after the first launch's
  write-backs, after the second stretch, and after the second launch's write-backs. Every execution ends with each
  unscoped buffer at its contents in the last of these; read at the two result buffers and at the eleven arguments
  this is the statement below (the arguments are never written, so they end as launched).
-/
import proofs.«109827_j72567767433498_2_alg».proof.Proof.Gen.KernelIdeal.Frame

set_option maxRecDepth 16384

noncomputable section

namespace Cert.KernelIdeal.Results

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the two result buffers end at their
    contents in the last memory state of the run, and the arguments as launched. -/
theorem run_results : θ_run defs (onTc (τ := τ) (main (F := F))) ⟨m, fun _ => 0, ρ⟩ (fun r => ∀ c : Dev nD,
      r.2.mem ((c.tc : Thread nD τ).loc main_v29) = W4 m ρ c (Proc.devRef .tc main_v29)
      ∧ r.2.mem ((c.tc : Thread nD τ).loc main_v23) = W4 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v29 (by decide)),
       h c _ (mem_uc main_v23 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.Results

end
-- ==== Proof.Spec.lean ====
/-
  One round of message passing on a graph with 500000 nodes and 10000000 directed edges, entry by entry on the
  extended reals.

  An edge `e` runs from node `s(e)` to node `d(e)`; the two node numbers are read off a column of 32-bit start
  indices, each read signed and clamped into `[0, 499999]` (`rowOf`). The new features of edge `e` are the six numbers
      relu (a(e) · W₂[j] + b₂[j])                              j = 0, 1
      relu (Σₖ (x[s(e),k] + x[d(e),k]) · W₁[c,k] + b₁[c])       c = 0 … 3
  (`edgeR`: the sum of the two end points' features goes through the linear layer), or, with the linear layer
  applied to each end point first,
      relu ((Σₖ x[s(e),k] · W₁[c,k] + Σₖ x[d(e),k] · W₁[c,k]) + b₁[c])
  (`edgeK`). The two agree when the node features and the weights are real numbers (`edgeK_eq_edgeR`): on the extended
  reals a product distributes over a sum of two reals.

  The new features of node `n`, from its own features `x[n,·]` and the six sums `es[n,·]` of the features of the edges
  that leave it, are the fourteen numbers
      relu ((x[n,0] · W[j,0] + b[j]) + x[n,1] · W[j,1])                                  j = 0 … 3
      relu ((…((es[n,0] · W'[j,0] + b'[j]) + es[n,1] · W'[j,1]) + …) + es[n,5] · W'[j,5])   j = 0 … 9
  (`node`), each a sum taken in one fixed order; any other order gives the same number, addition on the extended
  reals being commutative and associative (`fma2_eq_sum`, `fma6_eq_sum`).
-/
import Idealize.ShloMosaic.PureOps.Ideal
import Idealize.ShloMosaic.Lib.ValueIdx

noncomputable section

namespace Sgnn

open Idealize.ShloMosaic Idealize.ShloMosaic.ValueIdx

/-- A matrix given entry by entry. -/
def ofFn2 {a b : Nat} (f : Fin a → Fin b → EReal) : FVec Ideal ⟨2, ![a, b]⟩ .f32 :=
  fun i => f ⟨(i 0).val, idx2_lt0 i⟩ ⟨(i 1).val, idx2_lt1 i⟩

@[simp] theorem ofFn2_ix2 {a b : Nat} (f : Fin a → Fin b → EReal) (r : Fin a) (j : Fin b) : ofFn2 f (ix2 r j) = f r j := rfl

/-- The node a start index names: the word read signed, clamped into `[0, 499999]`. -/
def rowOf (w : BitVec 32) : Fin 500000 := ⟨min w.toInt.toNat (500000 - 1), by omega⟩

/-- `max v 0`, the zero written as the binary32 word both programs spell it with. -/
def relu0 (v : EReal) : EReal := max v (Ideal.ofBits .f32 0x00000000#32)

/-- `x · w + b` over two terms, the bias added after the first product. -/
def fma2 (x w : Fin 2 → EReal) (b : EReal) : EReal := (x 0 * w 0 + b) + x 1 * w 1

/-- `x · w + b` over six terms, the bias added after the first product. -/
def fma6 (x w : Fin 6 → EReal) (b : EReal) : EReal :=
  (((((x 0 * w 0 + b) + x 1 * w 1) + x 2 * w 2) + x 3 * w 3) + x 4 * w 4) + x 5 * w 5

/-- The two-term chain is the plain sum of the products, plus the bias. -/
theorem fma2_eq_sum (x w : Fin 2 → EReal) (b : EReal) : (∑ k : Fin 2, x k * w k) + b = fma2 x w b := by
  rw [Fin.sum_univ_two]; unfold fma2; exact add_right_comm _ _ _

/-- The six-term chain is the plain sum of the products, plus the bias. -/
theorem fma6_eq_sum (x w : Fin 6 → EReal) (b : EReal) : (∑ k : Fin 6, x k * w k) + b = fma6 x w b := by
  rw [Fin.sum_univ_six]; unfold fma6; ac_rfl

/-- The new edge features, the linear layer applied to each end point's features before they are added. -/
def edgeK (x : FVec Ideal ⟨2, ![500000, 2]⟩ .f32) (ea : FVec Ideal ⟨2, ![10000000, 1]⟩ .f32)
    (is id : IVec ⟨2, ![10000000, 1]⟩ 32) (W1 : FVec Ideal ⟨2, ![4, 2]⟩ .f32) (b1 : FVec Ideal ⟨1, ![4]⟩ .f32)
    (W2 : FVec Ideal ⟨2, ![2, 1]⟩ .f32) (b2 : FVec Ideal ⟨1, ![2]⟩ .f32) : FVec Ideal ⟨2, ![10000000, 6]⟩ .f32 :=
  ofFn2 fun e j => relu0 (
    if h : j.val < 2 then ea (ix2 e 0) * W2 (ix2 ⟨j.val, h⟩ 0) + b2 (ix1 ⟨j.val, h⟩)
    else ((∑ k : Fin 2, x (ix2 (rowOf (is (ix2 e 0))) k) * W1 (ix2 (⟨j.val - 2, by omega⟩ : Fin 4) k))
        + (∑ k : Fin 2, x (ix2 (rowOf (id (ix2 e 0))) k) * W1 (ix2 (⟨j.val - 2, by omega⟩ : Fin 4) k)))
      + b1 (ix1 ⟨j.val - 2, by omega⟩))

/-- The new edge features, the two end points' features added before the linear layer. -/
def edgeR (x : FVec Ideal ⟨2, ![500000, 2]⟩ .f32) (ea : FVec Ideal ⟨2, ![10000000, 1]⟩ .f32)
    (is id : IVec ⟨2, ![10000000, 1]⟩ 32) (W1 : FVec Ideal ⟨2, ![4, 2]⟩ .f32) (b1 : FVec Ideal ⟨1, ![4]⟩ .f32)
    (W2 : FVec Ideal ⟨2, ![2, 1]⟩ .f32) (b2 : FVec Ideal ⟨1, ![2]⟩ .f32) : FVec Ideal ⟨2, ![10000000, 6]⟩ .f32 :=
  ofFn2 fun e j => relu0 (
    if h : j.val < 2 then ea (ix2 e 0) * W2 (ix2 ⟨j.val, h⟩ 0) + b2 (ix1 ⟨j.val, h⟩)
    else (∑ k : Fin 2, (x (ix2 (rowOf (is (ix2 e 0))) k) + x (ix2 (rowOf (id (ix2 e 0))) k))
          * W1 (ix2 (⟨j.val - 2, by omega⟩ : Fin 4) k))
      + b1 (ix1 ⟨j.val - 2, by omega⟩))

/-- On the extended reals a product distributes over a sum when all three numbers are real. -/
theorem add_mul_of_real (a b w : ℝ) : ((a : EReal) + (b : EReal)) * (w : EReal) = (a : EReal) * w + (b : EReal) * w := by
  rw [← EReal.coe_add, ← EReal.coe_mul, ← EReal.coe_mul, ← EReal.coe_mul, ← EReal.coe_add, add_mul]

/-- With real node features and real weights the two arrangements of the edge layer agree: the linear layer is
    additive. -/
theorem edgeK_eq_edgeR (x : FVec Ideal ⟨2, ![500000, 2]⟩ .f32) (ea : FVec Ideal ⟨2, ![10000000, 1]⟩ .f32)
    (is id : IVec ⟨2, ![10000000, 1]⟩ 32) (W1 : FVec Ideal ⟨2, ![4, 2]⟩ .f32) (b1 : FVec Ideal ⟨1, ![4]⟩ .f32)
    (W2 : FVec Ideal ⟨2, ![2, 1]⟩ .f32) (b2 : FVec Ideal ⟨1, ![2]⟩ .f32)
    (hx : ∀ i, ∃ r : ℝ, x i = (r : EReal)) (hW : ∀ i, ∃ r : ℝ, W1 i = (r : EReal)) :
    edgeK x ea is id W1 b1 W2 b2 = edgeR x ea is id W1 b1 W2 b2 := by
  funext i
  obtain ⟨e, j, rfl⟩ : ∃ (e : Fin 10000000) (j : Fin 6), i = ix2 e j := ⟨i 0, i 1, eq_ix2 i⟩
  unfold edgeK edgeR
  rw [ofFn2_ix2, ofFn2_ix2]
  by_cases h : j.val < 2
  · rw [dif_pos h, dif_pos h]
  · rw [dif_neg h, dif_neg h, ← Finset.sum_add_distrib]
    refine congrArg relu0 (congrArg (· + _) (Finset.sum_congr rfl fun k _ => ?_))
    obtain ⟨a, ha⟩ := hx (ix2 (rowOf (is (ix2 e 0))) k)
    obtain ⟨b, hb⟩ := hx (ix2 (rowOf (id (ix2 e 0))) k)
    obtain ⟨w, hw⟩ := hW (ix2 (⟨j.val - 2, by omega⟩ : Fin 4) k)
    rw [ha, hb, hw, add_mul_of_real]

/-- The new node features: a linear layer on the node's own two features beside a linear layer on the six sums
    over its outgoing edges, each written as a chain of products added one at a time, then relu. -/
def node (x : FVec Ideal ⟨2, ![500000, 2]⟩ .f32) (es : FVec Ideal ⟨2, ![500000, 6]⟩ .f32)
    (W : FVec Ideal ⟨2, ![4, 2]⟩ .f32) (b : FVec Ideal ⟨1, ![4]⟩ .f32)
    (W' : FVec Ideal ⟨2, ![10, 6]⟩ .f32) (b' : FVec Ideal ⟨1, ![10]⟩ .f32) : FVec Ideal ⟨2, ![500000, 14]⟩ .f32 :=
  ofFn2 fun n j => relu0 (
    if h : j.val < 4 then fma2 (fun k => x (ix2 n k)) (fun k => W (ix2 ⟨j.val, h⟩ k)) (b (ix1 ⟨j.val, h⟩))
    else fma6 (fun k => es (ix2 n k)) (fun k => W' (ix2 (⟨j.val - 4, by omega⟩ : Fin 10) k)) (b' (ix1 ⟨j.val - 4, by omega⟩)))

end Sgnn

end
-- ==== Proof.LibConcatCols.lean ====
/-
  A matrix built by laying pieces side by side, read at an entry.

  Pieces of one height `R` and any widths are concatenated along the columns into an `R × C` matrix. The entry at
  row `r`, column `k` is the entry of the piece whose span of columns holds `k`: if the pieces before piece `n`
  have total width `pre`, and `k = pre + k'` with `k'` a column of piece `n`, the entry is piece `n` at `(r, k')`.
-/
import Idealize.ShloMosaic.Lib.Pipeline.Value
import Idealize.ShloMosaic.Lib.ValueIdx

namespace LibConcatCols

open Idealize.ShloMosaic Idealize.ShloMosaic.ValueIdx

variable {α : Type}

/-- The column-wise concatenation `xs` of matrices of height `R`, read at row `r` and column `k`: piece `n`, of
    width `c`, at `(r, k')`, where the pieces before it are `pre` columns wide together and `k = pre + k'`. -/
theorem concatenate_cols_apply {R C : Nat} (xs : List ((s : Shape) × (s.Idx → α)))
    (h : Shape.Concatenates (xs.map (·.1)) (⟨2, ![R, C]⟩ : Shape) (1 : Fin 2))
    (r : Fin R) (k : Fin C) (n : Nat) (hn : n < xs.length) (c : Nat)
    (x₁ : (⟨2, ![R, c]⟩ : Shape).Idx → α) (hxn : xs[n] = ⟨(⟨2, ![R, c]⟩ : Shape), x₁⟩) (pre : Nat)
    (hpre : (((xs.take n).map (·.1)).map fun s : Shape =>
        if h : s.rank = (⟨2, ![R, C]⟩ : Shape).rank then s.size ((1 : Fin (⟨2, ![R, C]⟩ : Shape).rank).cast h.symm) else 0).sum = pre)
    (k' : Fin c) (hk : pre + k'.val = k.val) :
    concatenate (⟨2, ![R, C]⟩ : Shape) (1 : Fin 2) xs h (ix2 r k) = x₁ (ix2 r k') :=
  concatenate_apply_piece (t := (⟨2, ![R, C]⟩ : Shape)) (1 : Fin 2) xs h (ix2 r k) n hn (⟨2, ![R, c]⟩ : Shape) x₁ hxn rfl pre hpre
    (ix2 r k')
    (fun b hb => match b, hb with
      | ⟨0, _⟩, _ => rfl
      | ⟨1, _⟩, hb => absurd rfl hb)
    hk

end LibConcatCols
-- ==== Proof.LibUnitBlock.lean ====
/-
  A leading unit axis and unit-extent rows or columns of rank-2 arrays, read at an index written by its coordinates,
  over arbitrary extents and any element type:

  * `drop_lead_apply`: a [1,a,b] block viewed as an [a,b] matrix reads, at (p, q), the block at (0, p, q);
  * `add_lead_apply`: an [a,b] matrix viewed as a [1,a,b] block reads, at (u, p, q), the matrix at (p, q);
  * `row_spread_apply`: a [1,b] row spread over [a,b] reads, at (p, q), the row at (0, q);
  * `col_spread_apply`: an [a,1] column spread over [a,b] reads, at (p, q), the column at (p, 0).

  The two views keep the row-major position (the unit coordinate contributes nothing); a spread reads coordinate 0
  along the operand's unit axis.
-/
import Idealize.ShloMosaic.Lib.ValueIdx
import Idealize.ShloMosaic.Lib.Pipeline.Value

namespace LibUnitBlock

open Idealize.ShloMosaic Idealize.ShloMosaic.ValueIdx

variable {α : Type} {a b : ℕ}

/-- A [1,b] row spread over [a,b] reads, at (p, q), the row at (0, q). -/
theorem row_spread_apply (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- An [a,1] column spread over [a,b] reads, at (p, q), the column at (p, 0). -/
theorem col_spread_apply (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A [1,a,b] block viewed as [a,b] reads, at (p, q), the block at (0, p, q). -/
theorem drop_lead_apply (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 (0 : Fin 1) p q) :=
  shapeCast_apply v h _ _ (by
    rw [Shape.rowMajor_val_three, Shape.rowMajor_val_two]
    show (0 * a + p.val) * b + q.val = p.val * b + q.val
    rw [Nat.zero_mul, Nat.zero_add])

/-- An [a,b] matrix viewed as a [1,a,b] block reads, at (u, p, q), the matrix at (p, q). -/
theorem add_lead_apply (v : (⟨2, ![a, b]⟩ : Shape).Idx → α)
    (h : (⟨2, ![a, b]⟩ : Shape).ShapeCasts ⟨3, ![1, a, b]⟩) (u : Fin 1) (p : Fin a) (q : Fin b) :
    shapeCast ⟨3, ![1, a, b]⟩ v h (ix3 u p q) = v (ix2 p q) :=
  shapeCast_apply v h _ _ (by
    have hu : u.val = 0 := by omega
    rw [Shape.rowMajor_val_three, Shape.rowMajor_val_two]
    show p.val * b + q.val = (u.val * a + p.val) * b + q.val
    rw [hu, Nat.zero_mul, Nat.zero_add])

end LibUnitBlock
-- ==== Proof.EdgeBody.lean ====
/-
  The edge kernel's tile, entry by entry.

  A tile is 8000 consecutive edges. Row `r` of the tile the kernel stores holds six numbers: columns 0 and 1 are
  `relu (a[r] · W₂[j] + b₂[j])` from the tile's edge attribute `a[r]`, columns 2 … 5 are `relu (g[r,c] + b₁[c])` from row
  `r` of the tile of gathered node sums `g`. The kernel builds the six columns separately and lays them side by side,
  so reading its result at `(r, j)` means finding the piece that holds column `j`.
-/
import proofs.«109827_j72567767433498_2_alg».proof.Proof.Gen.KernelIdeal.Skeleton
import proofs.«109827_j72567767433498_2_alg».proof.Proof.Spec
import proofs.«109827_j72567767433498_2_alg».proof.Proof.LibConcatCols
import proofs.«109827_j72567767433498_2_alg».proof.Proof.LibUnitBlock
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-- A single entry cut out of a matrix, as a 1 × 1 matrix, is that entry. -/
theorem slice11_eq {α : Type} {n0 n1 : Nat} (o0 o1 : Nat) (X : (⟨2, ![n0, n1]⟩ : Shape).Idx → α)
    (h : (⟨2, ![n0, n1]⟩ : Shape).Slices ![o0, o1] ⟨2, ![1, 1]⟩) (a b : Fin 1) :
    extractStridedSlice ⟨2, ![1, 1]⟩ ![o0, o1] X h (ix2 a b)
      = X (ix2 ⟨o0, Nat.lt_of_lt_of_le (Nat.lt_succ_self o0) (h.2 0)⟩ ⟨o1, Nat.lt_of_lt_of_le (Nat.lt_succ_self o1) (h.2 1)⟩) :=
  extractStridedSlice_apply _ _ _ _ _ (fun ax => by
    match ax with
    | ⟨0, _⟩ => show o0 = o0 + a.val; omega
    | ⟨1, _⟩ => show o1 = o1 + b.val; omega)

/-- Row `r`, column `j` of the tile the edge kernel stores. -/
theorem edge_pay_apply (x0 : Vec Ideal S8000x4 .f32) (x1 : Vec Ideal S8000x1 .f32) (x2 : Vec Ideal S1x4 .f32)
    (x3 : Vec Ideal S2x1 .f32) (x4 : Vec Ideal S1x2 .f32) (r : Fin 8000) (j : Fin 6) :
    k0_pay1 (F := Ideal) x0 x1 x2 x3 x4 (ix2 r j)
      = Sgnn.relu0 (if h : j.val < 2 then x1 (ix2 r 0) * x3 (ix2 ⟨j.val, h⟩ 0) + x4 (ix2 0 ⟨j.val, h⟩)
          else x0 (ix2 r ⟨j.val - 2, by omega⟩) + x2 (ix2 0 ⟨j.val - 2, by omega⟩)) := by
  unfold k0_pay1
  rw [maximumf_apply, broadcast_apply, shapeCast_self x0, shapeCast_self x2, shapeCast_self x4]
  unfold Sgnn.relu0
  refine congrArg (fun v => max v _) ?_
  match j with
  | ⟨0, _⟩ =>
    rw [dif_pos (show (0 : ℕ) < 2 by omega)]
    refine (LibConcatCols.concatenate_cols_apply _ _ r _ 0 (by show (0 : ℕ) < 2; omega) 2 _ rfl 0 rfl (0 : Fin 2) rfl).trans ?_
    refine (LibConcatCols.concatenate_cols_apply _ _ r _ 0 (by show (0 : ℕ) < 2; omega) 1 _ rfl 0 rfl (0 : Fin 1) rfl).trans ?_
    rw [addf_apply, mulf_apply, LibUnitBlock.row_spread_apply, LibUnitBlock.row_spread_apply, slice11_eq, slice11_eq]
    rfl
  | ⟨1, _⟩ =>
    rw [dif_pos (show (1 : ℕ) < 2 by omega)]
    refine (LibConcatCols.concatenate_cols_apply _ _ r _ 0 (by show (0 : ℕ) < 2; omega) 2 _ rfl 0 rfl (1 : Fin 2) rfl).trans ?_
    refine (LibConcatCols.concatenate_cols_apply _ _ r _ 1 (by show (1 : ℕ) < 2; omega) 1 _ rfl 1 rfl (0 : Fin 1) rfl).trans ?_
    rw [addf_apply, mulf_apply, LibUnitBlock.row_spread_apply, LibUnitBlock.row_spread_apply, slice11_eq, slice11_eq]
    rfl
  | ⟨2, _⟩ =>
    rw [dif_neg (show ¬ (2 : ℕ) < 2 by omega)]
    refine (LibConcatCols.concatenate_cols_apply _ _ r _ 1 (by show (1 : ℕ) < 2; omega) 4 _ rfl 2 rfl (0 : Fin 4) rfl).trans ?_
    rw [addf_apply, LibUnitBlock.row_spread_apply]
    rfl
  | ⟨3, _⟩ =>
    rw [dif_neg (show ¬ (3 : ℕ) < 2 by omega)]
    refine (LibConcatCols.concatenate_cols_apply _ _ r _ 1 (by show (1 : ℕ) < 2; omega) 4 _ rfl 2 rfl (1 : Fin 4) rfl).trans ?_
    rw [addf_apply, LibUnitBlock.row_spread_apply]
    rfl
  | ⟨4, _⟩ =>
    rw [dif_neg (show ¬ (4 : ℕ) < 2 by omega)]
    refine (LibConcatCols.concatenate_cols_apply _ _ r _ 1 (by show (1 : ℕ) < 2; omega) 4 _ rfl 2 rfl (2 : Fin 4) rfl).trans ?_
    rw [addf_apply, LibUnitBlock.row_spread_apply]
    rfl
  | ⟨5, _⟩ =>
    rw [dif_neg (show ¬ (5 : ℕ) < 2 by omega)]
    refine (LibConcatCols.concatenate_cols_apply _ _ r _ 1 (by show (1 : ℕ) < 2; omega) 4 _ rfl 2 rfl (3 : Fin 4) rfl).trans ?_
    rw [addf_apply, LibUnitBlock.row_spread_apply]
    rfl

end Cert.KernelIdeal.Body

end
-- ==== Proof.EdgeValue.lean ====
/-
  The array the edge kernel leaves: 1250 tiles of 8000 edges each, one whole-array function.

  Grid point `t` reads rows `8000·t … 8000·t + 7999` of the gathered node sums and of the edge attributes (the three
  small operands are read whole at every point) and writes rows `8000·t … 8000·t + 7999` of the result. So row `e` of
  the result is written by point `e / 8000`, the tiles cover the array, and the array after the launch holds at
  `(e, j)` the kernel's formula of row `e` of its operands.
-/
import proofs.«109827_j72567767433498_2_alg».proof.Proof.Gen.KernelIdeal.Frame
import proofs.«109827_j72567767433498_2_alg».proof.Proof.EdgeBody
import Idealize.ShloMosaic.Lib.Pipeline.Value

set_option maxRecDepth 16384

noncomputable section

namespace Cert.KernelIdeal.EdgeValue

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The new edge features from the kernel's five operands: the gathered node sums `g`, the edge attributes `ea`, and
    the two biases as one-row matrices. -/
def edgeOut (g : FVec Ideal ⟨2, ![10000000, 4]⟩ .f32) (ea : FVec Ideal ⟨2, ![10000000, 1]⟩ .f32)
    (b1 : FVec Ideal ⟨2, ![1, 4]⟩ .f32) (W2 : FVec Ideal ⟨2, ![2, 1]⟩ .f32) (b2 : FVec Ideal ⟨2, ![1, 2]⟩ .f32) :
    FVec Ideal ⟨2, ![10000000, 6]⟩ .f32 :=
  Sgnn.ofFn2 fun e j => Sgnn.relu0 (
    if h : j.val < 2 then ea (ix2 e 0) * W2 (ix2 ⟨j.val, h⟩ 0) + b2 (ix2 0 ⟨j.val, h⟩)
    else g (ix2 e ⟨j.val - 2, by omega⟩) + b1 (ix2 0 ⟨j.val - 2, by omega⟩))

/-- Which block of its array each window takes at grid point `t`: block `t` of the three long arrays, the only block
    of the three small ones. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem row_lt (t : Fin cfg0.N) (r : Fin 8000) : t.val * 8000 + r.val < 10000000 := by
  have ht : t.val < 1250 := N_0 ▸ t.isLt
  have hr := r.isLt
  omega

/-- Row `r` of point `t`'s tile of the gathered node sums is row `8000·t + r` of the array. -/
theorem blk0_apply (c : Dev nD) (t : Fin cfg0.N) (r : Fin 8000) (k : Fin 4) :
    iblk0 V c 0 t (ix2 r k) = V c main_v20 (ix2 ⟨t.val * 8000 + r.val, row_lt t r⟩ k) := by
  show V c main_v20 (((cfg0.win 0).blk t).view.emb (ix2 r k)) = _
  refine congrArg _ (funext fun a => Fin.ext ?_)
  obtain ⟨e0, e1, -⟩ := idx_facts t
  match a with
  | ⟨0, _⟩ => show win0_0.index t (0 : Fin 2) * 8000 + 1 * r.val = t.val * 8000 + r.val; rw [e0]; omega
  | ⟨1, _⟩ => show win0_0.index t (1 : Fin 2) * 4 + 1 * k.val = k.val; rw [e1]; omega

/-- Row `r` of point `t`'s tile of the edge attributes is row `8000·t + r` of the array. -/
theorem blk1_apply (c : Dev nD) (t : Fin cfg0.N) (r : Fin 8000) (k : Fin 1) :
    iblk0 V c 1 t (ix2 r k) = V c main_arg1 (ix2 ⟨t.val * 8000 + r.val, row_lt t r⟩ k) := by
  show V c main_arg1 (((cfg0.win 1).blk t).view.emb (ix2 r k)) = _
  refine congrArg _ (funext fun a => Fin.ext ?_)
  obtain ⟨-, -, e0, e1, -⟩ := idx_facts t
  match a with
  | ⟨0, _⟩ => show win0_1.index t (0 : Fin 2) * 8000 + 1 * r.val = t.val * 8000 + r.val; rw [e0]; omega
  | ⟨1, _⟩ => show win0_1.index t (1 : Fin 2) * 1 + 1 * k.val = k.val; rw [e1]; omega

/-- The first bias row is read whole at every point. -/
theorem blk2_apply (c : Dev nD) (t : Fin cfg0.N) (a' : Fin 1) (k : Fin 4) :
    iblk0 V c 2 t (ix2 a' k) = V c main_v21 (ix2 a' k) := by
  show V c main_v21 (((cfg0.win 2).blk t).view.emb (ix2 a' k)) = _
  refine congrArg _ (funext fun a => Fin.ext ?_)
  obtain ⟨-, -, -, -, e0, e1, -⟩ := idx_facts t
  match a with
  | ⟨0, _⟩ => show win0_2.index t (0 : Fin 2) * 1 + 1 * a'.val = a'.val; rw [e0]; omega
  | ⟨1, _⟩ => show win0_2.index t (1 : Fin 2) * 4 + 1 * k.val = k.val; rw [e1]; omega

/-- The edge layer's weights are read whole at every point. -/
theorem blk3_apply (c : Dev nD) (t : Fin cfg0.N) (a' : Fin 2) (k : Fin 1) :
    iblk0 V c 3 t (ix2 a' k) = V c main_arg5 (ix2 a' k) := by
  show V c main_arg5 (((cfg0.win 3).blk t).view.emb (ix2 a' k)) = _
  refine congrArg _ (funext fun a => Fin.ext ?_)
  obtain ⟨-, -, -, -, -, -, e0, e1, -⟩ := idx_facts t
  match a with
  | ⟨0, _⟩ => show win0_3.index t (0 : Fin 2) * 2 + 1 * a'.val = a'.val; rw [e0]; omega
  | ⟨1, _⟩ => show win0_3.index t (1 : Fin 2) * 1 + 1 * k.val = k.val; rw [e1]; omega

/-- The second bias row is read whole at every point. -/
theorem blk4_apply (c : Dev nD) (t : Fin cfg0.N) (a' : Fin 1) (k : Fin 2) :
    iblk0 V c 4 t (ix2 a' k) = V c main_v22 (ix2 a' k) := by
  show V c main_v22 (((cfg0.win 4).blk t).view.emb (ix2 a' k)) = _
  refine congrArg _ (funext fun a => Fin.ext ?_)
  obtain ⟨-, -, -, -, -, -, -, -, e0, e1, -⟩ := idx_facts t
  match a with
  | ⟨0, _⟩ => show win0_4.index t (0 : Fin 2) * 1 + 1 * a'.val = a'.val; rw [e0]; omega
  | ⟨1, _⟩ => show win0_4.index t (1 : Fin 2) * 2 + 1 * k.val = k.val; rw [e1]; omega

/-- Entry `(r, j)` of the tile point `t` writes back lands at `(8000·t + r, j)` of the result. -/
theorem emb5 (t : Fin cfg0.N) (r : Fin 8000) (j : Fin 6) :
    ((cfg0.win 5).blk t).view.emb (ix2 r j) = ix2 ⟨t.val * 8000 + r.val, row_lt t r⟩ j := by
  refine funext fun a => Fin.ext ?_
  obtain ⟨-, -, -, -, -, -, -, -, -, -, e0, e1⟩ := idx_facts t
  match a with
  | ⟨0, _⟩ => show win0_5.index t (0 : Fin 2) * 8000 + 1 * r.val = t.val * 8000 + r.val; rw [e0]; omega
  | ⟨1, _⟩ => show win0_5.index t (1 : Fin 2) * 6 + 1 * j.val = j.val; rw [e1]; omega

/-- What point `t` writes back is tile `t` of the whole-array function of the operands as the launch finds them. -/
theorem flushed_eq (c : Dev nD) (t : Fin cfg0.N) :
    (dat0 V c).flushed 5 t = ((cfg0.win 5).blk t).view.read (Elt Ideal)
      (edgeOut (V c main_v20) (V c main_arg1) (V c main_v21) (V c main_arg5) (V c main_v22)) := by
  show (cfg0.win 5).cut (grid0.coords t) ((dat0 V c).after 5 t) = _
  rw [after0_5]
  unfold out0_5
  rw [View.canon_unit_zero hz]
  simp only [View.ld_unit_zero (S := S8000x4) hz, View.ld_unit_zero (S := S8000x1) hz, View.ld_unit_zero (S := S1x4) hz,
    View.ld_unit_zero (S := S2x1) hz, View.ld_unit_zero (S := S1x2) hz]
  funext y
  obtain ⟨r, j, rfl⟩ : ∃ (r : Fin 8000) (j : Fin 6), y = ix2 r j := ⟨y 0, y 1, eq_ix2 y⟩
  refine (Body.edge_pay_apply (iblk0 V c 0 t) (iblk0 V c 1 t) (iblk0 V c 2 t) (iblk0 V c 3 t) (iblk0 V c 4 t) r j).trans ?_
  show _ = edgeOut (V c main_v20) (V c main_arg1) (V c main_v21) (V c main_arg5) (V c main_v22)
    (((cfg0.win 5).blk t).view.emb (ix2 r j))
  rw [emb5 t r j]
  unfold edgeOut
  rw [Sgnn.ofFn2_ix2]
  by_cases h : j.val < 2
  · rw [dif_pos h, dif_pos h, blk1_apply, blk3_apply, blk4_apply]
  · rw [dif_neg h, dif_neg h, blk0_apply, blk2_apply]

/-- An index of the result lies in point `t`'s tile iff each coordinate is in the tile's range on its axis. -/
theorem mem_blk (t : Fin cfg0.N) (i : S10000000x6.Idx) :
    i ∈ ((cfg0.win 5).blk t).view.set ↔ ∀ a : Fin 2, win0_5.index t a * S8000x6.size a ≤ (i a).val
      ∧ (i a).val < win0_5.index t a * S8000x6.size a + S8000x6.size a := by
  show i ∈ ((View.whole main_v23).slice (win0_5.rect t)).set ↔ _
  rw [View.set_slice_whole, Rect.mem_set_unit]
  exact Iff.rfl

/-- The array after the launch: the tiles cover it, row `e` lying in tile `e / 8000`. -/
theorem final (c : Dev nD) : (dat0 V c).arrAt 5 cfg0.N
    = edgeOut (V c main_v20) (V c main_arg1) (V c main_v21) (V c main_arg5) (V c main_v22) :=
  (dat0 V c).arrAt_eq_of_cover 5 _ (fun t _ => flushed_eq V c t) fun i => by
    have hi0 : (i 0).val < 10000000 := (i 0).isLt
    have hi1 : (i 1).val < 6 := (i 1).isLt
    have hN : cfg0.N = 1250 := N_0
    have ht : (i 0).val / 8000 < cfg0.N := by rw [hN]; omega
    refine ⟨⟨(i 0).val / 8000, ht⟩, flush0_5 _, ?_⟩
    rw [mem_blk]
    obtain ⟨-, -, -, -, -, -, -, -, -, -, e0, e1⟩ := idx_facts ⟨(i 0).val / 8000, ht⟩
    intro a
    match a with
    | ⟨0, _⟩ =>
      show win0_5.index ⟨(i 0).val / 8000, ht⟩ (0 : Fin 2) * 8000 ≤ (i 0).val
        ∧ (i 0).val < win0_5.index ⟨(i 0).val / 8000, ht⟩ (0 : Fin 2) * 8000 + 8000
      rw [e0]; show (i 0).val / 8000 * 8000 ≤ (i 0).val ∧ (i 0).val < (i 0).val / 8000 * 8000 + 8000; omega
    | ⟨1, _⟩ =>
      show win0_5.index ⟨(i 0).val / 8000, ht⟩ (1 : Fin 2) * 6 ≤ (i 1).val
        ∧ (i 1).val < win0_5.index ⟨(i 0).val / 8000, ht⟩ (1 : Fin 2) * 6 + 6
      rw [e1]; omega

end Cert.KernelIdeal.EdgeValue

end
-- ==== Proof.NodeBody.lean ====
/-
  The node kernel's tile, entry by entry.

  A tile is 5000 consecutive nodes. Row `r` of the tile the kernel stores holds fourteen numbers: columns 0 … 3 are
  `relu ((x[r,0] · W[j,0] + b[j]) + x[r,1] · W[j,1])` from the node's own two features, columns 4 … 13 are
  `relu ((…((s[r,0] · W'[j,0] + b'[j]) + s[r,1] · W'[j,1]) + …) + s[r,5] · W'[j,5])` from the six sums over the node's
  outgoing edges. The kernel builds the fourteen columns one product at a time and lays them side by side, so
  reading its result at `(r, j)` means finding the column and following its chain of products.
-/
import proofs.«109827_j72567767433498_2_alg».proof.Proof.Gen.KernelIdeal.Skeleton
import proofs.«109827_j72567767433498_2_alg».proof.Proof.Spec
import proofs.«109827_j72567767433498_2_alg».proof.Proof.EdgeBody
import proofs.«109827_j72567767433498_2_alg».proof.Proof.LibConcatCols
import proofs.«109827_j72567767433498_2_alg».proof.Proof.LibUnitBlock
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx

/-- The tile the node kernel stores, as one term of the six tiles it loads. -/
def nodePay (x0 : Vec Ideal S5000x2 .f32) (x1 : Vec Ideal S5000x6 .f32) (x2 : Vec Ideal S4x2 .f32)
    (x3 : Vec Ideal S1x4 .f32) (x4 : Vec Ideal S10x6 .f32) (x5 : Vec Ideal S1x10 .f32) : FVec Ideal S5000x14 .f32 :=
  k1_pay1 (k1_pay2 x1) x4 (k1_pay4 x5) (k1_pay10 x0 x2 (k1_pay3 x3) (k1_pay5 x0 x2 x3) (k1_pay6 x0 x2 x3) (k1_pay7 x0 x2 x3) (k1_pay8 x0) (k1_pay9 x2)) (k1_pay11 (k1_pay2 x1) x4 (k1_pay4 x5)) (k1_pay13 (k1_pay2 x1) x4 (k1_pay12 (k1_pay2 x1) x4 (k1_pay4 x5))) (k1_pay14 (k1_pay2 x1) x4 (k1_pay4 x5)) (k1_pay17 (k1_pay2 x1) x4 (k1_pay15 (k1_pay2 x1) x4 (k1_pay4 x5)) (k1_pay16 (k1_pay2 x1))) (k1_pay18 (k1_pay2 x1) x4 (k1_pay4 x5)) (k1_pay22 (k1_pay2 x1) x4 (k1_pay19 (k1_pay2 x1) x4 (k1_pay4 x5)) (k1_pay20 (k1_pay2 x1)) (k1_pay21 x4)) (k1_pay23 (k1_pay2 x1) x4 (k1_pay4 x5)) (k1_pay26 (k1_pay2 x1) x4 (k1_pay24 (k1_pay2 x1) x4) (k1_pay25 (k1_pay4 x5))) (k1_pay27 (k1_pay2 x1) x4 (k1_pay4 x5)) (k1_pay28 (k1_pay2 x1))

set_option maxHeartbeats 1000000 in
/-- Row `r`, column `j` of the tile the node kernel stores. -/
theorem node_pay_apply (x0 : Vec Ideal S5000x2 .f32) (x1 : Vec Ideal S5000x6 .f32) (x2 : Vec Ideal S4x2 .f32)
    (x3 : Vec Ideal S1x4 .f32) (x4 : Vec Ideal S10x6 .f32) (x5 : Vec Ideal S1x10 .f32) (r : Fin 5000) (j : Fin 14) :
    nodePay x0 x1 x2 x3 x4 x5 (ix2 r j)
      = Sgnn.relu0 (if h : j.val < 4
          then Sgnn.fma2 (fun k => x0 (ix2 r k)) (fun k => x2 (ix2 ⟨j.val, h⟩ k)) (x3 (ix2 0 ⟨j.val, h⟩))
          else Sgnn.fma6 (fun k => x1 (ix2 r k)) (fun k => x4 (ix2 (⟨j.val - 4, by omega⟩ : Fin 10) k))
            (x5 (ix2 0 ⟨j.val - 4, by omega⟩))) := by
  unfold nodePay k1_pay1 k1_pay5 k1_pay6 k1_pay7 k1_pay8 k1_pay9 k1_pay10 k1_pay11 k1_pay12 k1_pay13 k1_pay14 k1_pay15 k1_pay16 k1_pay17 k1_pay18 k1_pay19 k1_pay20 k1_pay21 k1_pay22 k1_pay23 k1_pay24 k1_pay25 k1_pay26 k1_pay27 k1_pay28 k1_pay2 k1_pay3 k1_pay4
  rw [maximumf_apply, broadcast_apply, shapeCast_self x1, shapeCast_self x3, shapeCast_self x5]
  unfold Sgnn.relu0 Sgnn.fma2 Sgnn.fma6
  refine congrArg (fun v => max v _) ?_
  match j with
  | ⟨0, _⟩ =>
    rw [dif_pos (show (0 : ℕ) < 4 by omega)]
    refine (LibConcatCols.concatenate_cols_apply _ _ r _ 0 (by show (0 : ℕ) < 2; omega) 4 _ rfl 0 rfl (0 : Fin 4) rfl).trans ?_
    refine (LibConcatCols.concatenate_cols_apply _ _ r _ 0 (by show (0 : ℕ) < 4; omega) 1 _ rfl 0 rfl (0 : Fin 1) rfl).trans ?_
    simp only [addf_apply, mulf_apply, LibUnitBlock.row_spread_apply, slice11_eq, slice2_axis1_eq]
    rfl
  | ⟨1, _⟩ =>
    rw [dif_pos (show (1 : ℕ) < 4 by omega)]
    refine (LibConcatCols.concatenate_cols_apply _ _ r _ 0 (by show (0 : ℕ) < 2; omega) 4 _ rfl 0 rfl (1 : Fin 4) rfl).trans ?_
    refine (LibConcatCols.concatenate_cols_apply _ _ r _ 1 (by show (1 : ℕ) < 4; omega) 1 _ rfl 1 rfl (0 : Fin 1) rfl).trans ?_
    simp only [addf_apply, mulf_apply, LibUnitBlock.row_spread_apply, slice11_eq, slice2_axis1_eq]
    rfl
  | ⟨2, _⟩ =>
    rw [dif_pos (show (2 : ℕ) < 4 by omega)]
    refine (LibConcatCols.concatenate_cols_apply _ _ r _ 0 (by show (0 : ℕ) < 2; omega) 4 _ rfl 0 rfl (2 : Fin 4) rfl).trans ?_
    refine (LibConcatCols.concatenate_cols_apply _ _ r _ 2 (by show (2 : ℕ) < 4; omega) 1 _ rfl 2 rfl (0 : Fin 1) rfl).trans ?_
    simp only [addf_apply, mulf_apply, LibUnitBlock.row_spread_apply, slice11_eq, slice2_axis1_eq]
    rfl
  | ⟨3, _⟩ =>
    rw [dif_pos (show (3 : ℕ) < 4 by omega)]
    refine (LibConcatCols.concatenate_cols_apply _ _ r _ 0 (by show (0 : ℕ) < 2; omega) 4 _ rfl 0 rfl (3 : Fin 4) rfl).trans ?_
    refine (LibConcatCols.concatenate_cols_apply _ _ r _ 3 (by show (3 : ℕ) < 4; omega) 1 _ rfl 3 rfl (0 : Fin 1) rfl).trans ?_
    simp only [addf_apply, mulf_apply, LibUnitBlock.row_spread_apply, slice11_eq, slice2_axis1_eq]
    rfl
  | ⟨4, _⟩ =>
    rw [dif_neg (show ¬ (4 : ℕ) < 4 by omega)]
    refine (LibConcatCols.concatenate_cols_apply _ _ r _ 1 (by show (1 : ℕ) < 2; omega) 10 _ rfl 4 rfl (0 : Fin 10) rfl).trans ?_
    refine (LibConcatCols.concatenate_cols_apply _ _ r _ 0 (by show (0 : ℕ) < 10; omega) 1 _ rfl 0 rfl (0 : Fin 1) rfl).trans ?_
    simp only [addf_apply, mulf_apply, LibUnitBlock.row_spread_apply, slice11_eq, slice2_axis1_eq]
    rfl
  | ⟨5, _⟩ =>
    rw [dif_neg (show ¬ (5 : ℕ) < 4 by omega)]
    refine (LibConcatCols.concatenate_cols_apply _ _ r _ 1 (by show (1 : ℕ) < 2; omega) 10 _ rfl 4 rfl (1 : Fin 10) rfl).trans ?_
    refine (LibConcatCols.concatenate_cols_apply _ _ r _ 1 (by show (1 : ℕ) < 10; omega) 1 _ rfl 1 rfl (0 : Fin 1) rfl).trans ?_
    simp only [addf_apply, mulf_apply, LibUnitBlock.row_spread_apply, slice11_eq, slice2_axis1_eq]
    rfl
  | ⟨6, _⟩ =>
    rw [dif_neg (show ¬ (6 : ℕ) < 4 by omega)]
    refine (LibConcatCols.concatenate_cols_apply _ _ r _ 1 (by show (1 : ℕ) < 2; omega) 10 _ rfl 4 rfl (2 : Fin 10) rfl).trans ?_
    refine (LibConcatCols.concatenate_cols_apply _ _ r _ 2 (by show (2 : ℕ) < 10; omega) 1 _ rfl 2 rfl (0 : Fin 1) rfl).trans ?_
    simp only [addf_apply, mulf_apply, LibUnitBlock.row_spread_apply, slice11_eq, slice2_axis1_eq]
    rfl
  | ⟨7, _⟩ =>
    rw [dif_neg (show ¬ (7 : ℕ) < 4 by omega)]
    refine (LibConcatCols.concatenate_cols_apply _ _ r _ 1 (by show (1 : ℕ) < 2; omega) 10 _ rfl 4 rfl (3 : Fin 10) rfl).trans ?_
    refine (LibConcatCols.concatenate_cols_apply _ _ r _ 3 (by show (3 : ℕ) < 10; omega) 1 _ rfl 3 rfl (0 : Fin 1) rfl).trans ?_
    simp only [addf_apply, mulf_apply, LibUnitBlock.row_spread_apply, slice11_eq, slice2_axis1_eq]
    rfl
  | ⟨8, _⟩ =>
    rw [dif_neg (show ¬ (8 : ℕ) < 4 by omega)]
    refine (LibConcatCols.concatenate_cols_apply _ _ r _ 1 (by show (1 : ℕ) < 2; omega) 10 _ rfl 4 rfl (4 : Fin 10) rfl).trans ?_
    refine (LibConcatCols.concatenate_cols_apply _ _ r _ 4 (by show (4 : ℕ) < 10; omega) 1 _ rfl 4 rfl (0 : Fin 1) rfl).trans ?_
    simp only [addf_apply, mulf_apply, LibUnitBlock.row_spread_apply, slice11_eq, slice2_axis1_eq]
    rfl
  | ⟨9, _⟩ =>
    rw [dif_neg (show ¬ (9 : ℕ) < 4 by omega)]
    refine (LibConcatCols.concatenate_cols_apply _ _ r _ 1 (by show (1 : ℕ) < 2; omega) 10 _ rfl 4 rfl (5 : Fin 10) rfl).trans ?_
    refine (LibConcatCols.concatenate_cols_apply _ _ r _ 5 (by show (5 : ℕ) < 10; omega) 1 _ rfl 5 rfl (0 : Fin 1) rfl).trans ?_
    simp only [addf_apply, mulf_apply, LibUnitBlock.row_spread_apply, slice11_eq, slice2_axis1_eq]
    rfl
  | ⟨10, _⟩ =>
    rw [dif_neg (show ¬ (10 : ℕ) < 4 by omega)]
    refine (LibConcatCols.concatenate_cols_apply _ _ r _ 1 (by show (1 : ℕ) < 2; omega) 10 _ rfl 4 rfl (6 : Fin 10) rfl).trans ?_
    refine (LibConcatCols.concatenate_cols_apply _ _ r _ 6 (by show (6 : ℕ) < 10; omega) 1 _ rfl 6 rfl (0 : Fin 1) rfl).trans ?_
    simp only [addf_apply, mulf_apply, LibUnitBlock.row_spread_apply, slice11_eq, slice2_axis1_eq]
    rfl
  | ⟨11, _⟩ =>
    rw [dif_neg (show ¬ (11 : ℕ) < 4 by omega)]
    refine (LibConcatCols.concatenate_cols_apply _ _ r _ 1 (by show (1 : ℕ) < 2; omega) 10 _ rfl 4 rfl (7 : Fin 10) rfl).trans ?_
    refine (LibConcatCols.concatenate_cols_apply _ _ r _ 7 (by show (7 : ℕ) < 10; omega) 1 _ rfl 7 rfl (0 : Fin 1) rfl).trans ?_
    simp only [addf_apply, mulf_apply, LibUnitBlock.row_spread_apply, slice11_eq, slice2_axis1_eq]
    rfl
  | ⟨12, _⟩ =>
    rw [dif_neg (show ¬ (12 : ℕ) < 4 by omega)]
    refine (LibConcatCols.concatenate_cols_apply _ _ r _ 1 (by show (1 : ℕ) < 2; omega) 10 _ rfl 4 rfl (8 : Fin 10) rfl).trans ?_
    refine (LibConcatCols.concatenate_cols_apply _ _ r _ 8 (by show (8 : ℕ) < 10; omega) 1 _ rfl 8 rfl (0 : Fin 1) rfl).trans ?_
    simp only [addf_apply, mulf_apply, LibUnitBlock.row_spread_apply, slice11_eq, slice2_axis1_eq]
    rfl
  | ⟨13, _⟩ =>
    rw [dif_neg (show ¬ (13 : ℕ) < 4 by omega)]
    refine (LibConcatCols.concatenate_cols_apply _ _ r _ 1 (by show (1 : ℕ) < 2; omega) 10 _ rfl 4 rfl (9 : Fin 10) rfl).trans ?_
    refine (LibConcatCols.concatenate_cols_apply _ _ r _ 9 (by show (9 : ℕ) < 10; omega) 1 _ rfl 9 rfl (0 : Fin 1) rfl).trans ?_
    simp only [addf_apply, mulf_apply, LibUnitBlock.row_spread_apply, slice11_eq, slice2_axis1_eq]
    rfl

end Cert.KernelIdeal.Body

end
-- ==== Proof.NodeValue.lean ====
/-
  The array the node kernel leaves: 100 tiles of 5000 nodes each, one whole-array function.

  Grid point `t` reads rows `5000·t … 5000·t + 4999` of the node features and of the edge sums (the four small
  operands are read whole at every point) and writes rows `5000·t … 5000·t + 4999` of the result. So row `n` of the
  result is written by point `n / 5000`, the tiles cover the array, and the array after the launch holds at `(n, j)`
  the kernel's formula of row `n` of its operands.
-/
import proofs.«109827_j72567767433498_2_alg».proof.Proof.Gen.KernelIdeal.Frame
import proofs.«109827_j72567767433498_2_alg».proof.Proof.NodeBody
import Idealize.ShloMosaic.Lib.Pipeline.Value

set_option maxRecDepth 16384

noncomputable section

namespace Cert.KernelIdeal.NodeValue

open Cert.KernelIdeal Cert.KernelIdeal.Gen Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The new node features from the kernel's six operands: the node features `x`, the edge sums `es`, the two weight
    matrices, and the two biases as one-row matrices. -/
def nodeOut (x : FVec Ideal ⟨2, ![500000, 2]⟩ .f32) (es : FVec Ideal ⟨2, ![500000, 6]⟩ .f32)
    (W : FVec Ideal ⟨2, ![4, 2]⟩ .f32) (b : FVec Ideal ⟨2, ![1, 4]⟩ .f32)
    (W' : FVec Ideal ⟨2, ![10, 6]⟩ .f32) (b' : FVec Ideal ⟨2, ![1, 10]⟩ .f32) : FVec Ideal ⟨2, ![500000, 14]⟩ .f32 :=
  Sgnn.ofFn2 fun n j => Sgnn.relu0 (
    if h : j.val < 4 then Sgnn.fma2 (fun k => x (ix2 n k)) (fun k => W (ix2 ⟨j.val, h⟩ k)) (b (ix2 0 ⟨j.val, h⟩))
    else Sgnn.fma6 (fun k => es (ix2 n k)) (fun k => W' (ix2 (⟨j.val - 4, by omega⟩ : Fin 10) k))
      (b' (ix2 0 ⟨j.val - 4, by omega⟩)))

/-- Which block of its array each window takes at grid point `t`: block `t` of the three long arrays, the only block
    of the four small ones. -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = t.val
    ∧ win1_6.index t (1 : Fin 2) = 0 :=
  (by decide +kernel : ∀ t : Fin grid1.N, _)

theorem row_lt (t : Fin cfg1.N) (r : Fin 5000) : t.val * 5000 + r.val < 500000 := by
  have ht : t.val < 100 := N_1 ▸ t.isLt
  have hr := r.isLt
  omega

/-- Row `r` of point `t`'s tile of the node features is row `5000·t + r` of the array. -/
theorem blk0_apply (c : Dev nD) (t : Fin cfg1.N) (r : Fin 5000) (k : Fin 2) :
    iblk1 V c 0 t (ix2 r k) = V c main_arg0 (ix2 ⟨t.val * 5000 + r.val, row_lt t r⟩ k) := by
  show V c main_arg0 (((cfg1.win 0).blk t).view.emb (ix2 r k)) = _
  refine congrArg _ (funext fun a => Fin.ext ?_)
  obtain ⟨e0, e1, -⟩ := idx_facts t
  match a with
  | ⟨0, _⟩ => show win1_0.index t (0 : Fin 2) * 5000 + 1 * r.val = t.val * 5000 + r.val; rw [e0]; omega
  | ⟨1, _⟩ => show win1_0.index t (1 : Fin 2) * 2 + 1 * k.val = k.val; rw [e1]; omega

/-- Row `r` of point `t`'s tile of the edge sums is row `5000·t + r` of the array. -/
theorem blk1_apply (c : Dev nD) (t : Fin cfg1.N) (r : Fin 5000) (k : Fin 6) :
    iblk1 V c 1 t (ix2 r k) = V c main_v26 (ix2 ⟨t.val * 5000 + r.val, row_lt t r⟩ k) := by
  show V c main_v26 (((cfg1.win 1).blk t).view.emb (ix2 r k)) = _
  refine congrArg _ (funext fun a => Fin.ext ?_)
  obtain ⟨-, -, e0, e1, -⟩ := idx_facts t
  match a with
  | ⟨0, _⟩ => show win1_1.index t (0 : Fin 2) * 5000 + 1 * r.val = t.val * 5000 + r.val; rw [e0]; omega
  | ⟨1, _⟩ => show win1_1.index t (1 : Fin 2) * 6 + 1 * k.val = k.val; rw [e1]; omega

/-- The first layer's weights are read whole at every point. -/
theorem blk2_apply (c : Dev nD) (t : Fin cfg1.N) (a' : Fin 4) (k : Fin 2) :
    iblk1 V c 2 t (ix2 a' k) = V c main_arg7 (ix2 a' k) := by
  show V c main_arg7 (((cfg1.win 2).blk t).view.emb (ix2 a' k)) = _
  refine congrArg _ (funext fun a => Fin.ext ?_)
  obtain ⟨-, -, -, -, e0, e1, -⟩ := idx_facts t
  match a with
  | ⟨0, _⟩ => show win1_2.index t (0 : Fin 2) * 4 + 1 * a'.val = a'.val; rw [e0]; omega
  | ⟨1, _⟩ => show win1_2.index t (1 : Fin 2) * 2 + 1 * k.val = k.val; rw [e1]; omega

/-- The first layer's bias row is read whole at every point. -/
theorem blk3_apply (c : Dev nD) (t : Fin cfg1.N) (a' : Fin 1) (k : Fin 4) :
    iblk1 V c 3 t (ix2 a' k) = V c main_v27 (ix2 a' k) := by
  show V c main_v27 (((cfg1.win 3).blk t).view.emb (ix2 a' k)) = _
  refine congrArg _ (funext fun a => Fin.ext ?_)
  obtain ⟨-, -, -, -, -, -, e0, e1, -⟩ := idx_facts t
  match a with
  | ⟨0, _⟩ => show win1_3.index t (0 : Fin 2) * 1 + 1 * a'.val = a'.val; rw [e0]; omega
  | ⟨1, _⟩ => show win1_3.index t (1 : Fin 2) * 4 + 1 * k.val = k.val; rw [e1]; omega

/-- The second layer's weights are read whole at every point. -/
theorem blk4_apply (c : Dev nD) (t : Fin cfg1.N) (a' : Fin 10) (k : Fin 6) :
    iblk1 V c 4 t (ix2 a' k) = V c main_arg9 (ix2 a' k) := by
  show V c main_arg9 (((cfg1.win 4).blk t).view.emb (ix2 a' k)) = _
  refine congrArg _ (funext fun a => Fin.ext ?_)
  obtain ⟨-, -, -, -, -, -, -, -, e0, e1, -⟩ := idx_facts t
  match a with
  | ⟨0, _⟩ => show win1_4.index t (0 : Fin 2) * 10 + 1 * a'.val = a'.val; rw [e0]; omega
  | ⟨1, _⟩ => show win1_4.index t (1 : Fin 2) * 6 + 1 * k.val = k.val; rw [e1]; omega

/-- The second layer's bias row is read whole at every point. -/
theorem blk5_apply (c : Dev nD) (t : Fin cfg1.N) (a' : Fin 1) (k : Fin 10) :
    iblk1 V c 5 t (ix2 a' k) = V c main_v28 (ix2 a' k) := by
  show V c main_v28 (((cfg1.win 5).blk t).view.emb (ix2 a' k)) = _
  refine congrArg _ (funext fun a => Fin.ext ?_)
  obtain ⟨-, -, -, -, -, -, -, -, -, -, e0, e1, -⟩ := idx_facts t
  match a with
  | ⟨0, _⟩ => show win1_5.index t (0 : Fin 2) * 1 + 1 * a'.val = a'.val; rw [e0]; omega
  | ⟨1, _⟩ => show win1_5.index t (1 : Fin 2) * 10 + 1 * k.val = k.val; rw [e1]; omega

/-- Entry `(r, j)` of the tile point `t` writes back lands at `(5000·t + r, j)` of the result. -/
theorem emb6 (t : Fin cfg1.N) (r : Fin 5000) (j : Fin 14) :
    ((cfg1.win 6).blk t).view.emb (ix2 r j) = ix2 ⟨t.val * 5000 + r.val, row_lt t r⟩ j := by
  refine funext fun a => Fin.ext ?_
  obtain ⟨-, -, -, -, -, -, -, -, -, -, -, -, e0, e1⟩ := idx_facts t
  match a with
  | ⟨0, _⟩ => show win1_6.index t (0 : Fin 2) * 5000 + 1 * r.val = t.val * 5000 + r.val; rw [e0]; omega
  | ⟨1, _⟩ => show win1_6.index t (1 : Fin 2) * 14 + 1 * j.val = j.val; rw [e1]; omega

/-- What point `t` writes back is tile `t` of the whole-array function of the operands as the launch finds them. -/
theorem flushed_eq (c : Dev nD) (t : Fin cfg1.N) :
    (dat1 V c).flushed 6 t = ((cfg1.win 6).blk t).view.read (Elt Ideal)
      (nodeOut (V c main_arg0) (V c main_v26) (V c main_arg7) (V c main_v27) (V c main_arg9) (V c main_v28)) := by
  show (cfg1.win 6).cut (grid1.coords t) ((dat1 V c).after 6 t) = _
  rw [after1_6]
  unfold out1_6
  rw [View.canon_unit_zero hz]
  simp only [View.ld_unit_zero (S := S5000x2) hz, View.ld_unit_zero (S := S5000x6) hz, View.ld_unit_zero (S := S4x2) hz,
    View.ld_unit_zero (S := S1x4) hz, View.ld_unit_zero (S := S10x6) hz, View.ld_unit_zero (S := S1x10) hz]
  funext y
  obtain ⟨r, j, rfl⟩ : ∃ (r : Fin 5000) (j : Fin 14), y = ix2 r j := ⟨y 0, y 1, eq_ix2 y⟩
  refine (Body.node_pay_apply (iblk1 V c 0 t) (iblk1 V c 1 t) (iblk1 V c 2 t) (iblk1 V c 3 t) (iblk1 V c 4 t)
    (iblk1 V c 5 t) r j).trans ?_
  show _ = nodeOut (V c main_arg0) (V c main_v26) (V c main_arg7) (V c main_v27) (V c main_arg9) (V c main_v28)
    (((cfg1.win 6).blk t).view.emb (ix2 r j))
  rw [emb6 t r j]
  unfold nodeOut
  rw [Sgnn.ofFn2_ix2]
  by_cases h : j.val < 4
  · rw [dif_pos h, dif_pos h]
    simp only [blk0_apply, blk2_apply, blk3_apply]
  · rw [dif_neg h, dif_neg h]
    simp only [blk1_apply, blk4_apply, blk5_apply]

/-- An index of the result lies in point `t`'s tile iff each coordinate is in the tile's range on its axis. -/
theorem mem_blk (t : Fin cfg1.N) (i : S500000x14.Idx) :
    i ∈ ((cfg1.win 6).blk t).view.set ↔ ∀ a : Fin 2, win1_6.index t a * S5000x14.size a ≤ (i a).val
      ∧ (i a).val < win1_6.index t a * S5000x14.size a + S5000x14.size a := by
  show i ∈ ((View.whole main_v29).slice (win1_6.rect t)).set ↔ _
  rw [View.set_slice_whole, Rect.mem_set_unit]
  exact Iff.rfl

/-- The array after the launch: the tiles cover it, row `n` lying in tile `n / 5000`. -/
theorem final (c : Dev nD) : (dat1 V c).arrAt 6 cfg1.N
    = nodeOut (V c main_arg0) (V c main_v26) (V c main_arg7) (V c main_v27) (V c main_arg9) (V c main_v28) :=
  (dat1 V c).arrAt_eq_of_cover 6 _ (fun t _ => flushed_eq V c t) fun i => by
    have hi0 : (i 0).val < 500000 := (i 0).isLt
    have hi1 : (i 1).val < 14 := (i 1).isLt
    have hN : cfg1.N = 100 := N_1
    have ht : (i 0).val / 5000 < cfg1.N := by rw [hN]; omega
    refine ⟨⟨(i 0).val / 5000, ht⟩, flush1_6 _, ?_⟩
    rw [mem_blk]
    obtain ⟨-, -, -, -, -, -, -, -, -, -, -, -, e0, e1⟩ := idx_facts ⟨(i 0).val / 5000, ht⟩
    intro a
    match a with
    | ⟨0, _⟩ =>
      show win1_6.index ⟨(i 0).val / 5000, ht⟩ (0 : Fin 2) * 5000 ≤ (i 0).val
        ∧ (i 0).val < win1_6.index ⟨(i 0).val / 5000, ht⟩ (0 : Fin 2) * 5000 + 5000
      rw [e0]; show (i 0).val / 5000 * 5000 ≤ (i 0).val ∧ (i 0).val < (i 0).val / 5000 * 5000 + 5000; omega
    | ⟨1, _⟩ =>
      show win1_6.index ⟨(i 0).val / 5000, ht⟩ (1 : Fin 2) * 14 ≤ (i 1).val
        ∧ (i 1).val < win1_6.index ⟨(i 0).val / 5000, ht⟩ (1 : Fin 2) * 14 + 14
      rw [e1]; omega

end Cert.KernelIdeal.NodeValue

end
-- ==== Proof.KernelValue.lean ====
/-
  The idealized kernel's two result arrays as functions of its arguments.

  Before the first launch the program computes, on the host, the node table `x · W₁ᵀ`, the two columns of start
  indices (a negative index moved up by the number of nodes), the rows of the table they name, and their sum (the
  first launch's long operand); the two bias vectors are viewed as one-row matrices. Between the launches it adds the
  rows of the first launch's result into the node each edge starts from (the second launch's second operand) and views
  two more bias vectors as rows. Reading the five memory states of the run back through these operations gives each
  result array as the launches' whole-array functions of the arguments.
-/
import proofs.«109827_j72567767433498_2_alg».proof.Proof.KernelRun
import proofs.«109827_j72567767433498_2_alg».proof.Proof.EdgeValue
import proofs.«109827_j72567767433498_2_alg».proof.Proof.NodeValue
import Idealize.ShloMosaic.Lib.StableHlo.Run

set_option maxRecDepth 16384

noncomputable section

namespace Cert.KernelIdeal.KValue

open Cert.KernelIdeal Cert.KernelIdeal.Gen Idealize.ShloMosaic Idealize.ShloMosaic.ValueIdx
open Idealize.ShloMosaic.TcCoe Idealize.SL.Sem Idealize.ShloMosaic.StableHlo

/-- The first row of the edge list, as a vector: where each edge starts. -/
def srcRaw (x2 : IVec S2x10000000 32) : IVec S10000000 32 :=
  shapeCast _ (extractStridedSlice S1x10000000 ![0, 0] x2 slices_S2x10000000_S1x10000000_0_0) shapeCasts_S1x10000000_S10000000

/-- The second row of the edge list, as a vector: where each edge ends. -/
def dstRaw (x2 : IVec S2x10000000 32) : IVec S10000000 32 :=
  shapeCast _ (extractStridedSlice S1x10000000 ![1, 0] x2 slices_S2x10000000_S1x10000000_1_0) shapeCasts_S1x10000000_S10000000

/-- A vector of node numbers as a column of start indices: a negative number is moved up by the number of nodes. -/
def startCol (v : IVec S10000000 32) : IVec S10000000x1 32 :=
  broadcastInDim S10000000x1 ![0] bcast_S10000000_S10000000x1_0
    (select (cmpi .slt v (broadcastInDim S10000000 ![] bcast_S_S10000000 (constantI S_ 32 0#32)))
      (addi v (broadcastInDim S10000000 ![] bcast_S_S10000000 (constantI S_ 32 500000#32))) v)

/-- The node table `x · W₁ᵀ`. -/
def nodeTable (x0 : FVec Ideal S500000x2 .f32) (x3 : FVec Ideal S4x2 .f32) :
    FVec Ideal S500000x4 .f32 :=
  Host.dotGeneral (F := Ideal) dot_S500000x2_S2x4_S500000x4_1_0_0_1_n_n (some .fp32) x0 (transpose S2x4 [1, 0] x3 transposes_S4x2_S2x4_1_0)

/-- The first launch's long operand: per edge, the table's row at its start node plus the row at its end node. -/
def gathered (x0 : FVec Ideal S500000x2 .f32) (x2 : IVec S2x10000000 32)
    (x3 : FVec Ideal S4x2 .f32) : FVec Ideal S10000000x4 .f32 :=
  addf (F := Ideal) (Host.gather gather_S500000x4_S10000000x1_S10000000x4_1_0_n_n_0_1_14 (nodeTable x0 x3) (startCol (srcRaw x2)))
    (Host.gather gather_S500000x4_S10000000x1_S10000000x4_1_0_n_n_0_1_14 (nodeTable x0 x3) (startCol (dstRaw x2)))

/-- The sum, per node, of the rows `u` of the edges that start there. -/
def segsum (x2 : IVec S2x10000000 32) (u : FVec Ideal S10000000x6 .f32) :
    FVec Ideal S500000x6 .f32 :=
  Host.scatterAdd (F := Ideal) scatter_S500000x6_S10000000x1_S10000000x6_1_0_0_1
    (broadcastInDim S500000x6 ![] bcast_S_S500000x6 (constant (F := Ideal) S_ .f32 0x00000000#32))
    (broadcastInDim S10000000x1 ![0] bcast_S10000000_S10000000x1_0 (srcRaw x2)) u

variable (m : (ℓ : Loc nD τ sig) → Buf (Elt Ideal) ℓ) (ρ : Dev nD → PrngReg)

/-! ## The first launch's operands -/

theorem V1_v20 (c : Dev nD) : V1 m ρ c main_v20
    = gathered (m ((c : Thread nD τ).loc main_arg0)) (m ((c : Thread nD τ).loc main_arg2)) (m ((c : Thread nD τ).loc main_arg3)) := by
  show StableHlo.after hostOps0 (W0 m ρ c) (Proc.devRef .tc main_v20) = _
  after_results_simp <;> rfl

theorem V1_arg1 (c : Dev nD) : V1 m ρ c main_arg1 = m ((c : Thread nD τ).loc main_arg1) := by
  show StableHlo.after hostOps0 (W0 m ρ c) (Proc.devRef .tc main_arg1) = _
  after_results_simp <;> rfl

theorem V1_v21 (c : Dev nD) : V1 m ρ c main_v21 = shapeCast _ (m ((c : Thread nD τ).loc main_arg4)) shapeCasts_S4_S1x4 := by
  show StableHlo.after hostOps0 (W0 m ρ c) (Proc.devRef .tc main_v21) = _
  after_results_simp <;> rfl

theorem V1_arg5 (c : Dev nD) : V1 m ρ c main_arg5 = m ((c : Thread nD τ).loc main_arg5) := by
  show StableHlo.after hostOps0 (W0 m ρ c) (Proc.devRef .tc main_arg5) = _
  after_results_simp <;> rfl

theorem V1_v22 (c : Dev nD) : V1 m ρ c main_v22 = shapeCast _ (m ((c : Thread nD τ).loc main_arg6)) shapeCasts_S2_S1x2 := by
  show StableHlo.after hostOps0 (W0 m ρ c) (Proc.devRef .tc main_v22) = _
  after_results_simp <;> rfl

theorem V1_v1 (c : Dev nD) : V1 m ρ c main_v1 = srcRaw (m ((c : Thread nD τ).loc main_arg2)) := by
  show StableHlo.after hostOps0 (W0 m ρ c) (Proc.devRef .tc main_v1) = _
  after_results_simp <;> rfl

/-! ## The first launch's result -/

theorem W2_v23 (c : Dev nD) : W2 m ρ c (Proc.devRef .tc main_v23)
    = (EdgeValue.edgeOut (gathered (m ((c : Thread nD τ).loc main_arg0)) (m ((c : Thread nD τ).loc main_arg2)) (m ((c : Thread nD τ).loc main_arg3))) (m ((c : Thread nD τ).loc main_arg1)) (shapeCast _ (m ((c : Thread nD τ).loc main_arg4)) shapeCasts_S4_S1x4) (m ((c : Thread nD τ).loc main_arg5)) (shapeCast _ (m ((c : Thread nD τ).loc main_arg6)) shapeCasts_S2_S1x2)) := by
  rw [show W2 m ρ c (Proc.devRef .tc main_v23) = (dat0 (V1 m ρ) c).arrAt 5 cfg0.N from W2_arr m ρ c 5,
    EdgeValue.final (V1 m ρ) c, V1_v20, V1_arg1, V1_v21, V1_arg5, V1_v22]

/-! ## The second launch's operands -/

theorem V3_v26 (c : Dev nD) : V3 m ρ c main_v26 = segsum (m ((c : Thread nD τ).loc main_arg2)) (EdgeValue.edgeOut (gathered (m ((c : Thread nD τ).loc main_arg0)) (m ((c : Thread nD τ).loc main_arg2)) (m ((c : Thread nD τ).loc main_arg3))) (m ((c : Thread nD τ).loc main_arg1)) (shapeCast _ (m ((c : Thread nD τ).loc main_arg4)) shapeCasts_S4_S1x4) (m ((c : Thread nD τ).loc main_arg5)) (shapeCast _ (m ((c : Thread nD τ).loc main_arg6)) shapeCasts_S2_S1x2)) := by
  show StableHlo.after hostOps1 (W2 m ρ c) (Proc.devRef .tc main_v26) = _
  after_results_simp
  rw [W2_v23, show W2 m ρ c (Proc.devRef .tc main_v1) = W1 m ρ c (Proc.devRef .tc main_v1) from W2_of_ne m ρ c main_v1 (by decide),
    show W1 m ρ c (Proc.devRef .tc main_v1) = srcRaw (m ((c : Thread nD τ).loc main_arg2)) from V1_v1 m ρ c]
  rfl

theorem W1_arg (c : Dev nD) (b : Ref sig .tc)
    (hb : b = main_arg0 ∨ b = main_arg7 ∨ b = main_arg8 ∨ b = main_arg9 ∨ b = main_arg10) :
    W1 m ρ c (Proc.devRef .tc b) = m ((c : Thread nD τ).loc b) := by
  rcases hb with rfl | rfl | rfl | rfl | rfl <;>
  · show StableHlo.after hostOps0 (W0 m ρ c) (Proc.devRef .tc _) = _
    after_results_simp <;> rfl

theorem V3_arg0 (c : Dev nD) : V3 m ρ c main_arg0 = (m ((c : Thread nD τ).loc main_arg0)) := by
  show StableHlo.after hostOps1 (W2 m ρ c) (Proc.devRef .tc main_arg0) = _
  after_results_simp
  exact (W2_of_ne m ρ c main_arg0 (by decide)).trans (W1_arg m ρ c main_arg0 (Or.inl rfl))

theorem V3_arg7 (c : Dev nD) : V3 m ρ c main_arg7 = (m ((c : Thread nD τ).loc main_arg7)) := by
  show StableHlo.after hostOps1 (W2 m ρ c) (Proc.devRef .tc main_arg7) = _
  after_results_simp
  exact (W2_of_ne m ρ c main_arg7 (by decide)).trans (W1_arg m ρ c main_arg7 (Or.inr (Or.inl rfl)))

theorem V3_arg9 (c : Dev nD) : V3 m ρ c main_arg9 = (m ((c : Thread nD τ).loc main_arg9)) := by
  show StableHlo.after hostOps1 (W2 m ρ c) (Proc.devRef .tc main_arg9) = _
  after_results_simp
  exact (W2_of_ne m ρ c main_arg9 (by decide)).trans (W1_arg m ρ c main_arg9 (Or.inr (Or.inr (Or.inr (Or.inl rfl)))))

theorem V3_v27 (c : Dev nD) : V3 m ρ c main_v27 = shapeCast _ (m ((c : Thread nD τ).loc main_arg8)) shapeCasts_S4_S1x4 := by
  show StableHlo.after hostOps1 (W2 m ρ c) (Proc.devRef .tc main_v27) = _
  after_results_simp
  rw [show W2 m ρ c (Proc.devRef .tc main_arg8) = (m ((c : Thread nD τ).loc main_arg8)) from
    (W2_of_ne m ρ c main_arg8 (by decide)).trans (W1_arg m ρ c main_arg8 (Or.inr (Or.inr (Or.inl rfl))))]
  rfl

theorem V3_v28 (c : Dev nD) : V3 m ρ c main_v28 = shapeCast _ (m ((c : Thread nD τ).loc main_arg10)) shapeCasts_S10_S1x10 := by
  show StableHlo.after hostOps1 (W2 m ρ c) (Proc.devRef .tc main_v28) = _
  after_results_simp
  rw [show W2 m ρ c (Proc.devRef .tc main_arg10) = (m ((c : Thread nD τ).loc main_arg10)) from
    (W2_of_ne m ρ c main_arg10 (by decide)).trans (W1_arg m ρ c main_arg10 (Or.inr (Or.inr (Or.inr (Or.inr rfl)))))]
  rfl

/-! ## The two results in the last memory state -/

theorem W4_v29 (c : Dev nD) : W4 m ρ c (Proc.devRef .tc main_v29)
    = (NodeValue.nodeOut (m ((c : Thread nD τ).loc main_arg0)) (segsum (m ((c : Thread nD τ).loc main_arg2)) (EdgeValue.edgeOut (gathered (m ((c : Thread nD τ).loc main_arg0)) (m ((c : Thread nD τ).loc main_arg2)) (m ((c : Thread nD τ).loc main_arg3))) (m ((c : Thread nD τ).loc main_arg1)) (shapeCast _ (m ((c : Thread nD τ).loc main_arg4)) shapeCasts_S4_S1x4) (m ((c : Thread nD τ).loc main_arg5)) (shapeCast _ (m ((c : Thread nD τ).loc main_arg6)) shapeCasts_S2_S1x2))) (m ((c : Thread nD τ).loc main_arg7)) (shapeCast _ (m ((c : Thread nD τ).loc main_arg8)) shapeCasts_S4_S1x4) (m ((c : Thread nD τ).loc main_arg9)) (shapeCast _ (m ((c : Thread nD τ).loc main_arg10)) shapeCasts_S10_S1x10)) := by
  rw [show W4 m ρ c (Proc.devRef .tc main_v29) = (dat1 (V3 m ρ) c).arrAt 6 cfg1.N from W4_arr m ρ c 6,
    NodeValue.final (V3 m ρ) c, V3_arg0, V3_v26, V3_arg7, V3_v27, V3_arg9, V3_v28]

theorem W4_v23 (c : Dev nD) : W4 m ρ c (Proc.devRef .tc main_v23)
    = (EdgeValue.edgeOut (gathered (m ((c : Thread nD τ).loc main_arg0)) (m ((c : Thread nD τ).loc main_arg2)) (m ((c : Thread nD τ).loc main_arg3))) (m ((c : Thread nD τ).loc main_arg1)) (shapeCast _ (m ((c : Thread nD τ).loc main_arg4)) shapeCasts_S4_S1x4) (m ((c : Thread nD τ).loc main_arg5)) (shapeCast _ (m ((c : Thread nD τ).loc main_arg6)) shapeCasts_S2_S1x2)) := by
  rw [show W4 m ρ c (Proc.devRef .tc main_v23) = W3 m ρ c (Proc.devRef .tc main_v23) from W4_of_ne m ρ c main_v23 (by decide)]
  show StableHlo.after hostOps1 (W2 m ρ c) (Proc.devRef .tc main_v23) = _
  after_results_simp
  exact W2_v23 m ρ c

/-- Every weakly fair execution of the idealized kernel terminates without a fault, with the node result at the
    second launch's function of the arguments and of the summed edge result, the edge result at the first launch's
    function of the arguments, and the arguments as launched. -/
theorem run : θ_run defs (onTc (τ := τ) (main (F := Ideal))) ⟨m, fun _ => 0, ρ⟩ (fun r => ∀ c : Dev nD,
      r.2.mem ((c.tc : Thread nD τ).loc main_v29) = (NodeValue.nodeOut (m ((c : Thread nD τ).loc main_arg0)) (segsum (m ((c : Thread nD τ).loc main_arg2)) (EdgeValue.edgeOut (gathered (m ((c : Thread nD τ).loc main_arg0)) (m ((c : Thread nD τ).loc main_arg2)) (m ((c : Thread nD τ).loc main_arg3))) (m ((c : Thread nD τ).loc main_arg1)) (shapeCast _ (m ((c : Thread nD τ).loc main_arg4)) shapeCasts_S4_S1x4) (m ((c : Thread nD τ).loc main_arg5)) (shapeCast _ (m ((c : Thread nD τ).loc main_arg6)) shapeCasts_S2_S1x2))) (m ((c : Thread nD τ).loc main_arg7)) (shapeCast _ (m ((c : Thread nD τ).loc main_arg8)) shapeCasts_S4_S1x4) (m ((c : Thread nD τ).loc main_arg9)) (shapeCast _ (m ((c : Thread nD τ).loc main_arg10)) shapeCasts_S10_S1x10))
      ∧ r.2.mem ((c.tc : Thread nD τ).loc main_v23) = (EdgeValue.edgeOut (gathered (m ((c : Thread nD τ).loc main_arg0)) (m ((c : Thread nD τ).loc main_arg2)) (m ((c : Thread nD τ).loc main_arg3))) (m ((c : Thread nD τ).loc main_arg1)) (shapeCast _ (m ((c : Thread nD τ).loc main_arg4)) shapeCasts_S4_S1x4) (m ((c : Thread nD τ).loc main_arg5)) (shapeCast _ (m ((c : Thread nD τ).loc main_arg6)) shapeCasts_S2_S1x2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (W4_v29 m ρ c), (h c).2.1.trans (W4_v23 m ρ c), (h c).2.2⟩)
    (Results.run_results m ρ)

end Cert.KernelIdeal.KValue

end
-- ==== Proof.LibGatherRows.lean ====
/-
  `stablehlo.gather` of whole rows of a two-axis table, and of entries of a one-axis table, at a column of start
  indices, read at an index.

  What `x[idx]` lowers to for a table `x : [N, C]` (or `[N]`) and start indices `idx : [R, 1]`: operand axis 0 is
  collapsed and is the one axis the start index names; operand axis 1, if there is one, is an offset axis taken
  whole. Result element `(e, c)` (or `e`) is therefore the operand at row `idx[e, 0]` — read as a signed integer
  and CLAMPED into `[0, N − 1]`, as a gather clamps every start index — and column `c`.
-/
import Idealize.ShloMosaic.PureOps.ShapeOps
import Idealize.ShloMosaic.Lib.ValueIdx

noncomputable section

open Idealize.ShloMosaic
open Idealize.ShloMosaic.ValueIdx

namespace Cert.LibGatherRows

/-! ## Table `[N, C]`, start indices `[R, 1]`, result `[R, C]` -/

/-- The row gather's dimension numbers; their conditions `wf` are decided on a program's literal extents. -/
abbrev rowsDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the table at the row `idx[e, 0]`, read signed and clamped into `[0, N − 1]`,
    and column `c`. -/
theorem gather_rows_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowsDims N C R wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (rowsDims N C R wf).start (ix2 e c) idx 0 + (rowsDims N C R wf).batchCoord (ix2 e c) 0
      + (rowsDims N C R wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 e c) ⟨List.idxOf (0 : Fin 2) (rowsDims N C R wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N C R wf).start (ix2 e c) idx 1 + (rowsDims N C R wf).batchCoord (ix2 e c) 1
      + (rowsDims N C R wf).offCoord (ix2 e c) 1 = c.val
    rw [GatherDims.batchCoord_eq_zero _ _ _ List.not_mem_nil]
    have hs : (rowsDims N C R wf).start (ix2 e c) idx 1 = 0 := by
      unfold GatherDims.start
      rw [dif_neg (show (1 : Fin 2) ∉ ([0] : List (Fin 2)) from by decide)]
    have hk : (1 : Fin 2) ∈ (rowsDims N C R wf).sKept := by
      show (1 : Fin 2) ∈ (List.finRange 2).filter (· ∉ ([0] : List (Fin 2)))
      decide
    have ho : (rowsDims N C R wf).offCoord (ix2 e c) 1 = c.val := by
      unfold GatherDims.offCoord
      rw [dif_pos hk]
      rfl
    rw [hs, ho]
    omega

/-! ## Table `[N]`, start indices `[R, 1]`, result `[R]` -/

/-- The entry gather's dimension numbers. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ENTRY GATHER READ AT `e`: the table at `idx[e, 0]`, read signed and clamped into `[0, N − 1]`. -/
theorem gather_vec_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecDims N R wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecDims N R wf).start (ix1 e) idx 0 + (vecDims N R wf).batchCoord (ix1 e) 0
    + (vecDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 e) ⟨List.idxOf (0 : Fin 1) (vecDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.LibGatherRows

end
-- ==== Proof.LibMatmul2.lean ====
/-
  A rank-2 by rank-2 matrix product with one contracted axis on each side and no batch axis, read at an entry of the
  result, at the ideal values: the sum over the contracted coordinate of the products of the operands' entries. Four
  arrangements of the contracted axes, for a product into a zero accumulator:

  * `matmul_nn_apply`: rows by columns, `out[a, b] = Σ_c A[a, c] · B[c, b]`;
  * `matmul_tn_apply`: the left operand contracted on its rows, `out[a, b] = Σ_c A[c, a] · B[c, b]`;
  * `matmul_nt_apply`: the right operand contracted on its columns, `out[a, b] = Σ_c A[a, c] · B[b, c]`;
  * `matmul_tt_apply`: both, `out[a, b] = Σ_c A[c, a] · B[b, c]`.
-/
import Idealize.ShloMosaic.PureOps.Ideal.Laws
import Idealize.ShloMosaic.Lib.ValueIdx

namespace LibMatmul2

open Idealize.ShloMosaic Idealize.ShloMosaic.ValueIdx

variable {m k n : Nat} {φ₁ φ₂ : FTy}

/-- Rows by columns. -/
theorem matmul_nn_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand contracted on its rows. -/
theorem matmul_tn_apply
    (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂) (a : Fin m) (b : Fin n) :
    FloatOps.matmul (⟨[0], [0], [1], [1], [], [], w⟩ : DotDims _ _ _) prec A B (constant _ .f32 0x00000000#32) (ix2 a b)
      = ∑ c : Fin k, A (ix2 c a) * B (ix2 c b) := by
  rw [Ideal.matmul_constant_zero_apply,
    ← Equiv.sum_comp (contrEquiv1 (⟨[0], [0], [1], [1], [], [], w⟩ : DotDims _ _ _) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The right operand contracted on its columns. -/
theorem matmul_nt_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-- The left operand contracted on its rows and the right one on its columns. -/
theorem matmul_tt_apply
    (w : DotDims.WF ⟨2, ![k, m]⟩ ⟨2, ![n, k]⟩ ⟨2, ![m, n]⟩ [0] [1] [1] [0] [] [])
    (prec : Option ContractPrecision) (A : FVec Ideal ⟨2, ![k, m]⟩ φ₁) (B : FVec Ideal ⟨2, ![n, k]⟩ φ₂) (a : Fin m) (b : Fin n) :
    FloatOps.matmul (⟨[0], [1], [1], [0], [], [], w⟩ : DotDims _ _ _) prec A B (constant _ .f32 0x00000000#32) (ix2 a b)
      = ∑ c : Fin k, A (ix2 c a) * B (ix2 b c) := by
  rw [Ideal.matmul_constant_zero_apply,
    ← Equiv.sum_comp (contrEquiv1 (⟨[0], [1], [1], [0], [], [], w⟩ : DotDims _ _ _) k rfl rfl).symm]
  refine Finset.sum_congr rfl fun c _ => ?_
  have c2 := contrEquiv1_symm_val (⟨[0], [1], [1], [0], [], [], w⟩ : DotDims ⟨2, ![k, m]⟩ ⟨2, ![n, k]⟩ ⟨2, ![m, n]⟩) k rfl rfl c
  have l2 : (⟨[0], [1], [1], [0], [], [], w⟩ : DotDims ⟨2, ![k, m]⟩ ⟨2, ![n, k]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [1], [1], [0], [], [], w⟩ : DotDims ⟨2, ![k, m]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end LibMatmul2
-- ==== Proof.LibDotGeneral2.lean ====
/-
  The host's `dot_general` of two rank-2 arrays with one contracted axis on each side and no batch axis, read at an
  entry of the result, at the ideal values. There the host's product and the matrix unit's product into a zero
  accumulator are one function of their operands (both are the sum, over the contraction index, of the products of the
  operands' entries; no rounding and no order of summation is left), so each arrangement of the contracted axes reads
  as the plain sum over the contracted coordinate:

  * `dotGeneral_nn_apply`: rows by columns, `out[a, b] = Σ_c A[a, c] · B[c, b]`;
  * `dotGeneral_tn_apply`: the left operand contracted on its rows, `out[a, b] = Σ_c A[c, a] · B[c, b]`;
  * `dotGeneral_nt_apply`: the right operand contracted on its columns, `out[a, b] = Σ_c A[a, c] · B[b, c]`;
  * `dotGeneral_tt_apply`: both, `out[a, b] = Σ_c A[c, a] · B[b, c]`.
-/
import Idealize.ShloMosaic.PureOps.Ideal.Laws
import Idealize.ShloMosaic.Lib.ValueIdx
import proofs.«109827_j72567767433498_2_alg».proof.Proof.LibMatmul2

namespace LibDotGeneral2

open Idealize.ShloMosaic Idealize.ShloMosaic.ValueIdx

/-- At the ideal values the host's `dot_general` is the matrix product with the same dimension numbers into a zero
    accumulator, whatever the precision and schedule keys: both are the contraction's sum. -/
theorem dotGeneral_eq_matmul_zero {sl sr so : Shape} {φ₁ φ₂ : FTy} (d : DotDims sl sr so)
    (prec prec' : Option ContractPrecision) (sched : HostSchedule) (lhs : FVec Ideal sl φ₁) (rhs : FVec Ideal sr φ₂) :
    FloatOps.dotGeneral d prec sched lhs rhs = FloatOps.matmul d prec' lhs rhs (constant so .f32 0x00000000#32) :=
  funext fun j =>
    (Ideal.dotGeneral_apply d prec sched lhs rhs j).trans (Ideal.matmul_constant_zero_apply d prec' lhs rhs j).symm

variable {m k n : Nat} {φ₁ φ₂ : FTy}

/-- Rows by columns. -/
theorem dotGeneral_nn_apply
    (w : DotDims.WF ⟨2, ![m, k]⟩ ⟨2, ![k, n]⟩ ⟨2, ![m, n]⟩ [1] [0] [0] [1] [] [])
    (prec : Option ContractPrecision) (sched : HostSchedule)
    (A : FVec Ideal ⟨2, ![m, k]⟩ φ₁) (B : FVec Ideal ⟨2, ![k, n]⟩ φ₂) (a : Fin m) (b : Fin n) :
    FloatOps.dotGeneral (⟨[1], [0], [0], [1], [], [], w⟩ : DotDims _ _ _) prec sched A B (ix2 a b)
      = ∑ c : Fin k, A (ix2 a c) * B (ix2 c b) := by
  rw [dotGeneral_eq_matmul_zero _ prec prec sched]
  exact LibMatmul2.matmul_nn_apply w prec A B a b

/-- The left operand contracted on its rows. -/
theorem dotGeneral_tn_apply
    (w : DotDims.WF ⟨2, ![k, m]⟩ ⟨2, ![k, n]⟩ ⟨2, ![m, n]⟩ [0] [0] [1] [1] [] [])
    (prec : Option ContractPrecision) (sched : HostSchedule)
    (A : FVec Ideal ⟨2, ![k, m]⟩ φ₁) (B : FVec Ideal ⟨2, ![k, n]⟩ φ₂) (a : Fin m) (b : Fin n) :
    FloatOps.dotGeneral (⟨[0], [0], [1], [1], [], [], w⟩ : DotDims _ _ _) prec sched A B (ix2 a b)
      = ∑ c : Fin k, A (ix2 c a) * B (ix2 c b) := by
  rw [dotGeneral_eq_matmul_zero _ prec prec sched]
  exact LibMatmul2.matmul_tn_apply w prec A B a b

/-- The right operand contracted on its columns. -/
theorem dotGeneral_nt_apply
    (w : DotDims.WF ⟨2, ![m, k]⟩ ⟨2, ![n, k]⟩ ⟨2, ![m, n]⟩ [1] [1] [0] [0] [] [])
    (prec : Option ContractPrecision) (sched : HostSchedule)
    (A : FVec Ideal ⟨2, ![m, k]⟩ φ₁) (B : FVec Ideal ⟨2, ![n, k]⟩ φ₂) (a : Fin m) (b : Fin n) :
    FloatOps.dotGeneral (⟨[1], [1], [0], [0], [], [], w⟩ : DotDims _ _ _) prec sched A B (ix2 a b)
      = ∑ c : Fin k, A (ix2 a c) * B (ix2 b c) := by
  rw [dotGeneral_eq_matmul_zero _ prec prec sched]
  exact LibMatmul2.matmul_nt_apply w prec A B a b

/-- The left operand contracted on its rows and the right one on its columns. -/
theorem dotGeneral_tt_apply
    (w : DotDims.WF ⟨2, ![k, m]⟩ ⟨2, ![n, k]⟩ ⟨2, ![m, n]⟩ [0] [1] [1] [0] [] [])
    (prec : Option ContractPrecision) (sched : HostSchedule)
    (A : FVec Ideal ⟨2, ![k, m]⟩ φ₁) (B : FVec Ideal ⟨2, ![n, k]⟩ φ₂) (a : Fin m) (b : Fin n) :
    FloatOps.dotGeneral (⟨[0], [1], [1], [0], [], [], w⟩ : DotDims _ _ _) prec sched A B (ix2 a b)
      = ∑ c : Fin k, A (ix2 c a) * B (ix2 b c) := by
  rw [dotGeneral_eq_matmul_zero _ prec prec sched]
  exact LibMatmul2.matmul_tt_apply w prec A B a b

end LibDotGeneral2
-- ==== Proof.KernelSpec.lean ====
/-
  The kernel's whole-array functions are the specification's.

  The first launch's long operand is, per edge, the row of the node table `x · W₁ᵀ` at the edge's start node plus the
  row at its end node; entry `(n, c)` of the table is `Σₖ x[n,k] · W₁[c,k]`, and a gather reads the row its start
  index names, read signed and clamped. With the biases read back from their one-row views, the first launch's
  function is `Sgnn.edgeK` and the second launch's is `Sgnn.node`.
-/
import proofs.«109827_j72567767433498_2_alg».proof.Proof.KernelValue
import proofs.«109827_j72567767433498_2_alg».proof.Proof.LibGatherRows
import proofs.«109827_j72567767433498_2_alg».proof.Proof.LibDotGeneral2
import Idealize.ShloMosaic.Lib.ValueLayout

noncomputable section

namespace Cert.KernelIdeal.KValue

open Cert.KernelIdeal Cert.KernelIdeal.Gen Idealize.ShloMosaic Idealize.ShloMosaic.ValueIdx

/-- Entry `(n, c)` of the node table. -/
theorem nodeTable_apply (x0 : FVec Ideal S500000x2 .f32) (x3 : FVec Ideal S4x2 .f32) (n : Fin 500000) (c : Fin 4) :
    nodeTable x0 x3 (ix2 n c) = ∑ k : Fin 2, x0 (ix2 n k) * x3 (ix2 c k) := by
  unfold nodeTable
  refine (LibDotGeneral2.dotGeneral_nn_apply dot_S500000x2_S2x4_S500000x4_1_0_0_1_n_n_wf _ _ x0 _ n c).trans ?_
  refine Finset.sum_congr rfl fun k _ => ?_
  rw [transpose_ix2_apply]

/-- Entry `(e, c)` of the first launch's long operand. -/
theorem gathered_apply (x0 : FVec Ideal S500000x2 .f32) (x2 : IVec S2x10000000 32) (x3 : FVec Ideal S4x2 .f32)
    (e : Fin 10000000) (c : Fin 4) :
    gathered x0 x2 x3 (ix2 e c)
      = (∑ k : Fin 2, x0 (ix2 (Sgnn.rowOf (startCol (srcRaw x2) (ix2 e 0))) k) * x3 (ix2 c k))
        + (∑ k : Fin 2, x0 (ix2 (Sgnn.rowOf (startCol (dstRaw x2) (ix2 e 0))) k) * x3 (ix2 c k)) := by
  unfold gathered
  rw [addf_apply]
  refine congrArg₂ (· + ·) ?_ ?_
  · refine (Cert.LibGatherRows.gather_rows_apply (by decide) gather_S500000x4_S10000000x1_S10000000x4_1_0_n_n_0_1_14_wf
      (nodeTable x0 x3) (startCol (srcRaw x2)) e c).trans ?_
    exact nodeTable_apply x0 x3 _ c
  · refine (Cert.LibGatherRows.gather_rows_apply (by decide) gather_S500000x4_S10000000x1_S10000000x4_1_0_n_n_0_1_14_wf
      (nodeTable x0 x3) (startCol (dstRaw x2)) e c).trans ?_
    exact nodeTable_apply x0 x3 _ c

/-- The first launch's function of the program's arguments is the specification's edge layer. -/
theorem edgeOut_eq (x0 : FVec Ideal S500000x2 .f32) (x1 : FVec Ideal S10000000x1 .f32) (x2 : IVec S2x10000000 32)
    (x3 : FVec Ideal S4x2 .f32) (x4 : FVec Ideal S4 .f32) (x5 : FVec Ideal S2x1 .f32) (x6 : FVec Ideal S2 .f32) :
    EdgeValue.edgeOut (gathered x0 x2 x3) x1 (shapeCast _ x4 shapeCasts_S4_S1x4) x5 (shapeCast _ x6 shapeCasts_S2_S1x2)
      = Sgnn.edgeK x0 x1 (startCol (srcRaw x2)) (startCol (dstRaw x2)) x3 x4 x5 x6 := by
  funext i
  obtain ⟨e, j, rfl⟩ : ∃ (e : Fin 10000000) (j : Fin 6), i = ix2 e j := ⟨i 0, i 1, eq_ix2 i⟩
  unfold EdgeValue.edgeOut Sgnn.edgeK
  rw [Sgnn.ofFn2_ix2, Sgnn.ofFn2_ix2]
  by_cases h : j.val < 2
  · rw [dif_pos h, dif_pos h, shapeCast_a_1a_apply]
  · rw [dif_neg h, dif_neg h, shapeCast_a_1a_apply, gathered_apply]

/-- The second launch's function of the program's arguments is the specification's node layer. -/
theorem nodeOut_eq (x0 : FVec Ideal S500000x2 .f32) (es : FVec Ideal S500000x6 .f32) (x7 : FVec Ideal S4x2 .f32)
    (x8 : FVec Ideal S4 .f32) (x9 : FVec Ideal S10x6 .f32) (x10 : FVec Ideal S10 .f32) :
    NodeValue.nodeOut x0 es x7 (shapeCast _ x8 shapeCasts_S4_S1x4) x9 (shapeCast _ x10 shapeCasts_S10_S1x10)
      = Sgnn.node x0 es x7 x8 x9 x10 := by
  funext i
  obtain ⟨n, j, rfl⟩ : ∃ (n : Fin 500000) (j : Fin 14), i = ix2 n j := ⟨i 0, i 1, eq_ix2 i⟩
  unfold NodeValue.nodeOut Sgnn.node
  rw [Sgnn.ofFn2_ix2, Sgnn.ofFn2_ix2]
  by_cases h : j.val < 4
  · rw [dif_pos h, dif_pos h, shapeCast_a_1a_apply]
  · rw [dif_neg h, dif_neg h, shapeCast_a_1a_apply]

end Cert.KernelIdeal.KValue

end
-- ==== Proof.RefEdge.lean ====
/-
  The reference's new edge features, entry by entry.

  The reference computes the edge features as relu of a row of six numbers laid side by side: two from the edge's own
  attribute through a 1 → 2 linear layer, and four from the sum of the two end points' node features through a
  2 → 4 linear layer. Each linear layer is a contraction with the transposed weight matrix plus a bias broadcast
  along the edges; the end points' features are two row gathers from the node table at the edge's two start indices.
  Read at edge `e` and column `j` this is `Sgnn.edgeR`.
-/
import proofs.«109827_j72567767433498_2_alg».proof.Proof.RefReadP
import proofs.«109827_j72567767433498_2_alg».proof.Proof.Spec
import proofs.«109827_j72567767433498_2_alg».proof.Proof.LibGatherRows

noncomputable section

namespace Cert.ReferenceIdeal.RefValue

open Cert.ReferenceIdeal Cert.ReferenceIdeal.Gen Cert.ReferenceIdeal.ReadP Idealize.ShloMosaic Idealize.ShloMosaic.ValueIdx

/-- The zero the edge relu compares with, at any entry. -/
theorem edge_zero_apply (i : S10000000x6.Idx) :
    val_main_call0_v0 (F := Ideal) i = Ideal.ofBits .f32 0x00000000#32 := by
  rw [val_main_call0_v0_apply, val_main_call0_cst_apply]; rfl

/-- The attribute layer at edge `e`, column `c`: the one attribute times the weight, plus the bias. -/
theorem edge_attr_apply (x1 : (⟨S10000000x1, .f32⟩ : BufTy).Contents (Elt Ideal)) (x5 : (⟨S2x1, .f32⟩ : BufTy).Contents (Elt Ideal)) (x6 : (⟨S2, .f32⟩ : BufTy).Contents (Elt Ideal)) (e : Fin 10000000) (c : Fin 2) :
    val_main_v8 (F := Ideal) x1 x5 x6 (ix2 e c) = x1 (ix2 e 0) * x5 (ix2 c 0) + x6 (ix1 c) := by
  have el : lidx_main_v5 (ix2 e c) 0 = ix2 e (0 : Fin 1) :=
    funext fun a => Fin.ext (by match a with | ⟨0, _⟩ => rfl | ⟨1, _⟩ => rfl)
  have er : idx_main_v4 (ridx_main_v5 (ix2 e c) 0) = ix2 c (0 : Fin 1) :=
    funext fun a => Fin.ext (by match a with | ⟨0, _⟩ => rfl | ⟨1, _⟩ => rfl)
  have eb : idx_main_v6 (idx_main_v7 (ix2 e c)) = ix1 c :=
    funext fun a => Fin.ext (by match a with | ⟨0, _⟩ => rfl)
  rw [val_main_v8_apply, val_main_v5_apply, val_main_v7_apply, val_main_v6_apply, Fin.sum_univ_one,
    val_main_v4_apply, el, er, eb]
  rfl

/-- A row gather from the node table at edge `e`, column `k`: the table at the node the start index names. -/
theorem gather_node_apply (x0 : (⟨S500000x2, .f32⟩ : BufTy).Contents (Elt Ideal)) (is : (⟨S10000000x1, .i32⟩ : BufTy).Contents (Elt Ideal)) (e : Fin 10000000) (k : Fin 2) :
    Host.gather gather_S500000x2_S10000000x1_S10000000x2_1_0_n_n_0_1_12 x0 is (ix2 e k)
      = x0 (ix2 (Sgnn.rowOf (is (ix2 e 0))) k) :=
  Cert.LibGatherRows.gather_rows_apply (N := 500000) (C := 2) (R := 10000000) (by decide)
    gather_S500000x2_S10000000x1_S10000000x2_1_0_n_n_0_1_12_wf x0 is e k

/-- The sum of the two end points' features at edge `e`, column `k`. -/
theorem edge_ends_apply (x0 : (⟨S500000x2, .f32⟩ : BufTy).Contents (Elt Ideal)) (x2 : (⟨S2x10000000, .i32⟩ : BufTy).Contents (Elt Ideal)) (e : Fin 10000000) (k : Fin 2) :
    val_main_v23 (F := Ideal) x0 x2 (ix2 e k)
      = x0 (ix2 (Sgnn.rowOf (val_main_v14 (F := Ideal) x2 (ix2 e 0))) k)
        + x0 (ix2 (Sgnn.rowOf (val_main_v21 (F := Ideal) x2 (ix2 e 0))) k) := by
  rw [val_main_v23_apply]
  unfold val_main_v15 val_main_v22
  generalize val_main_v14 (F := Ideal) x2 = is
  generalize val_main_v21 (F := Ideal) x2 = id
  rw [gather_node_apply, gather_node_apply]
  rfl

/-- The end-point layer at edge `e`, column `c`: the summed features through the linear layer, plus the bias. -/
theorem edge_ends_layer_apply (x0 : (⟨S500000x2, .f32⟩ : BufTy).Contents (Elt Ideal)) (x2 : (⟨S2x10000000, .i32⟩ : BufTy).Contents (Elt Ideal)) (x3 : (⟨S4x2, .f32⟩ : BufTy).Contents (Elt Ideal)) (x4 : (⟨S4, .f32⟩ : BufTy).Contents (Elt Ideal)) (e : Fin 10000000) (c : Fin 4) :
    val_main_v28 (F := Ideal) x0 x2 x3 x4 (ix2 e c)
      = (∑ k : Fin 2, (x0 (ix2 (Sgnn.rowOf (val_main_v14 (F := Ideal) x2 (ix2 e 0))) k)
            + x0 (ix2 (Sgnn.rowOf (val_main_v21 (F := Ideal) x2 (ix2 e 0))) k)) * x3 (ix2 c k))
        + x4 (ix1 c) := by
  have el : ∀ k : Fin 2, lidx_main_v25 (ix2 e c) k = ix2 e k := fun k =>
    funext fun a => Fin.ext (by match a with | ⟨0, _⟩ => rfl | ⟨1, _⟩ => rfl)
  have er : ∀ k : Fin 2, idx_main_v24 (ridx_main_v25 (ix2 e c) k) = ix2 c k := fun k =>
    funext fun a => Fin.ext (by match a with | ⟨0, _⟩ => rfl | ⟨1, _⟩ => rfl)
  have eb : idx_main_v26 (idx_main_v27 (ix2 e c)) = ix1 c :=
    funext fun a => Fin.ext (by match a with | ⟨0, _⟩ => rfl)
  rw [val_main_v28_apply, val_main_v25_apply, val_main_v27_apply, val_main_v26_apply, eb]
  simp only [val_main_v24_apply, el, er, edge_ends_apply]
  rfl

/-- Two blocks of columns laid side by side, widths 2 and 4, read at a column of the first block. -/
theorem edge_cat_left (a : S10000000x2.Idx → EReal) (b : S10000000x4.Idx → EReal) (e : Fin 10000000) (j : Fin 6)
    (h : j.val < 2) :
    concatenate S10000000x6 1 [⟨S10000000x2, a⟩, ⟨S10000000x4, b⟩] concatenates_S10000000x2_S10000000x4_S10000000x6_d1 (ix2 e j)
      = a (ix2 e ⟨j.val, h⟩) :=
  concatenate_pair_apply_left (1 : Fin 2) a b concatenates_S10000000x2_S10000000x4_S10000000x6_d1 (ix2 e j) rfl
    (ix2 e ⟨j.val, h⟩) (fun b => match b with | ⟨0, _⟩ => rfl | ⟨1, _⟩ => rfl)

/-- The same, read at a column of the second block. -/
theorem edge_cat_right (a : S10000000x2.Idx → EReal) (b : S10000000x4.Idx → EReal) (e : Fin 10000000) (j : Fin 6)
    (h : ¬ j.val < 2) :
    concatenate S10000000x6 1 [⟨S10000000x2, a⟩, ⟨S10000000x4, b⟩] concatenates_S10000000x2_S10000000x4_S10000000x6_d1 (ix2 e j)
      = b (ix2 e (⟨j.val - 2, by omega⟩ : Fin 4)) :=
  concatenate_pair_apply_right (1 : Fin 2) a b concatenates_S10000000x2_S10000000x4_S10000000x6_d1 (ix2 e j) rfl rfl
    (ix2 e (⟨j.val - 2, by omega⟩ : Fin 4))
    (fun b hb => match b, hb with
      | ⟨0, _⟩, _ => rfl
      | ⟨1, _⟩, hb => absurd rfl hb)
    (by show j.val - 2 + 2 = j.val; omega)

/-- THE REFERENCE'S EDGE FEATURES are `Sgnn.edgeR` of the arguments and the two columns of start indices. -/
theorem edge_eq (x0 : (⟨S500000x2, .f32⟩ : BufTy).Contents (Elt Ideal)) (x1 : (⟨S10000000x1, .f32⟩ : BufTy).Contents (Elt Ideal)) (x2 : (⟨S2x10000000, .i32⟩ : BufTy).Contents (Elt Ideal)) (x3 : (⟨S4x2, .f32⟩ : BufTy).Contents (Elt Ideal)) (x4 : (⟨S4, .f32⟩ : BufTy).Contents (Elt Ideal)) (x5 : (⟨S2x1, .f32⟩ : BufTy).Contents (Elt Ideal)) (x6 : (⟨S2, .f32⟩ : BufTy).Contents (Elt Ideal)) :
    val_main_v30 (F := Ideal) x0 x1 x2 x3 x4 x5 x6
      = Sgnn.edgeR x0 x1 (val_main_v14 (F := Ideal) x2) (val_main_v21 (F := Ideal) x2) x3 x4 x5 x6 := by
  funext i
  obtain ⟨e, j, rfl⟩ : ∃ (e : Fin 10000000) (j : Fin 6), i = ix2 e j := ⟨i 0, i 1, eq_ix2 i⟩
  rw [val_main_v30_apply, edge_zero_apply]
  unfold Sgnn.edgeR val_main_v29
  rw [Sgnn.ofFn2_ix2]
  by_cases h : j.val < 2
  · rw [dif_pos h, edge_cat_left _ _ e j h, edge_attr_apply]
    rfl
  · rw [dif_neg h, edge_cat_right _ _ e j h, edge_ends_layer_apply]
    rfl

end Cert.ReferenceIdeal.RefValue

end
-- ==== Proof.RefNode.lean ====
/-
  The reference's new node features, entry by entry.

  The reference computes the node features as relu of a row of fourteen numbers laid side by side: four from the
  node's own two features through a 2 → 4 linear layer, and ten from the six sums over the node's outgoing edges
  through a 6 → 10 linear layer. Each linear layer is a contraction with the transposed weight matrix plus a bias
  broadcast along the nodes. The six sums are one array `es`, whatever it is: nothing here looks inside it. Read at
  node `n` and column `j` this is `Sgnn.node`; the contraction's plain sum plus the bias is the chain of products
  added one at a time (`Sgnn.fma2_eq_sum`, `Sgnn.fma6_eq_sum`).
-/
import proofs.«109827_j72567767433498_2_alg».proof.Proof.RefReadP
import proofs.«109827_j72567767433498_2_alg».proof.Proof.Spec

noncomputable section

namespace Cert.ReferenceIdeal.RefValue

open Cert.ReferenceIdeal Cert.ReferenceIdeal.Gen Cert.ReferenceIdeal.ReadP Idealize.ShloMosaic Idealize.ShloMosaic.ValueIdx

/-- The zero the node relu compares with, at any entry. -/
theorem node_zero_apply (i : S500000x14.Idx) :
    val_main_call1_v0 (F := Ideal) i = Ideal.ofBits .f32 0x00000000#32 := by
  rw [val_main_call1_v0_apply, val_main_call1_cst_apply]; rfl

/-- The node's own layer at node `n`, column `c`. -/
theorem node_self_apply (x0 : (⟨S500000x2, .f32⟩ : BufTy).Contents (Elt Ideal)) (x7 : (⟨S4x2, .f32⟩ : BufTy).Contents (Elt Ideal)) (x8 : (⟨S4, .f32⟩ : BufTy).Contents (Elt Ideal)) (n : Fin 500000) (c : Fin 4) :
    val_main_v35 (F := Ideal) x0 x7 x8 (ix2 n c)
      = Sgnn.fma2 (fun k => x0 (ix2 n k)) (fun k => x7 (ix2 c k)) (x8 (ix1 c)) := by
  have el : ∀ k : Fin 2, lidx_main_v32 (ix2 n c) k = ix2 n k := fun k =>
    funext fun a => Fin.ext (by match a with | ⟨0, _⟩ => rfl | ⟨1, _⟩ => rfl)
  have er : ∀ k : Fin 2, idx_main_v31 (ridx_main_v32 (ix2 n c) k) = ix2 c k := fun k =>
    funext fun a => Fin.ext (by match a with | ⟨0, _⟩ => rfl | ⟨1, _⟩ => rfl)
  have eb : idx_main_v33 (idx_main_v34 (ix2 n c)) = ix1 c :=
    funext fun a => Fin.ext (by match a with | ⟨0, _⟩ => rfl)
  rw [val_main_v35_apply, val_main_v32_apply, val_main_v34_apply, val_main_v33_apply, eb]
  simp only [val_main_v31_apply, el, er]
  exact Sgnn.fma2_eq_sum (fun k => x0 (ix2 n k)) (fun k => x7 (ix2 c k)) (x8 (ix1 c))

/-- The layer on the six sums over outgoing edges at node `n`, column `c`. -/
theorem node_agg_apply (x0 : (⟨S500000x2, .f32⟩ : BufTy).Contents (Elt Ideal)) (x1 : (⟨S10000000x1, .f32⟩ : BufTy).Contents (Elt Ideal)) (x2 : (⟨S2x10000000, .i32⟩ : BufTy).Contents (Elt Ideal)) (x3 : (⟨S4x2, .f32⟩ : BufTy).Contents (Elt Ideal)) (x4 : (⟨S4, .f32⟩ : BufTy).Contents (Elt Ideal)) (x5 : (⟨S2x1, .f32⟩ : BufTy).Contents (Elt Ideal)) (x6 : (⟨S2, .f32⟩ : BufTy).Contents (Elt Ideal)) (x9 : (⟨S10x6, .f32⟩ : BufTy).Contents (Elt Ideal)) (x10 : (⟨S10, .f32⟩ : BufTy).Contents (Elt Ideal)) (n : Fin 500000) (c : Fin 10) :
    val_main_v43 (F := Ideal) x0 x1 x2 x3 x4 x5 x6 x9 x10 (ix2 n c)
      = Sgnn.fma6 (fun k => val_main_v38 (F := Ideal) x0 x1 x2 x3 x4 x5 x6 (ix2 n k)) (fun k => x9 (ix2 c k))
          (x10 (ix1 c)) := by
  have el : ∀ k : Fin 6, lidx_main_v40 (ix2 n c) k = ix2 n k := fun k =>
    funext fun a => Fin.ext (by match a with | ⟨0, _⟩ => rfl | ⟨1, _⟩ => rfl)
  have er : ∀ k : Fin 6, idx_main_v39 (ridx_main_v40 (ix2 n c) k) = ix2 c k := fun k =>
    funext fun a => Fin.ext (by match a with | ⟨0, _⟩ => rfl | ⟨1, _⟩ => rfl)
  have eb : idx_main_v41 (idx_main_v42 (ix2 n c)) = ix1 c :=
    funext fun a => Fin.ext (by match a with | ⟨0, _⟩ => rfl)
  rw [val_main_v43_apply, val_main_v40_apply, val_main_v42_apply, val_main_v41_apply, eb]
  generalize val_main_v38 (F := Ideal) x0 x1 x2 x3 x4 x5 x6 = es
  simp only [val_main_v39_apply, el, er]
  exact Sgnn.fma6_eq_sum (fun k => es (ix2 n k)) (fun k => x9 (ix2 c k)) (x10 (ix1 c))

/-- Two blocks of columns laid side by side, widths 4 and 10, read at a column of the first block. -/
theorem node_cat_left (a : S500000x4.Idx → EReal) (b : S500000x10.Idx → EReal) (n : Fin 500000) (j : Fin 14)
    (h : j.val < 4) :
    concatenate S500000x14 1 [⟨S500000x4, a⟩, ⟨S500000x10, b⟩] concatenates_S500000x4_S500000x10_S500000x14_d1 (ix2 n j)
      = a (ix2 n ⟨j.val, h⟩) :=
  concatenate_pair_apply_left (1 : Fin 2) a b concatenates_S500000x4_S500000x10_S500000x14_d1 (ix2 n j) rfl
    (ix2 n ⟨j.val, h⟩) (fun b => match b with | ⟨0, _⟩ => rfl | ⟨1, _⟩ => rfl)

/-- The same, read at a column of the second block. -/
theorem node_cat_right (a : S500000x4.Idx → EReal) (b : S500000x10.Idx → EReal) (n : Fin 500000) (j : Fin 14)
    (h : ¬ j.val < 4) :
    concatenate S500000x14 1 [⟨S500000x4, a⟩, ⟨S500000x10, b⟩] concatenates_S500000x4_S500000x10_S500000x14_d1 (ix2 n j)
      = b (ix2 n (⟨j.val - 4, by omega⟩ : Fin 10)) :=
  concatenate_pair_apply_right (1 : Fin 2) a b concatenates_S500000x4_S500000x10_S500000x14_d1 (ix2 n j) rfl rfl
    (ix2 n (⟨j.val - 4, by omega⟩ : Fin 10))
    (fun b hb => match b, hb with
      | ⟨0, _⟩, _ => rfl
      | ⟨1, _⟩, hb => absurd rfl hb)
    (by show j.val - 4 + 4 = j.val; omega)

/-- THE REFERENCE'S NODE FEATURES are `Sgnn.node` of the arguments and the array of sums over outgoing edges. -/
theorem node_eq (x0 : (⟨S500000x2, .f32⟩ : BufTy).Contents (Elt Ideal)) (x1 : (⟨S10000000x1, .f32⟩ : BufTy).Contents (Elt Ideal)) (x2 : (⟨S2x10000000, .i32⟩ : BufTy).Contents (Elt Ideal)) (x3 : (⟨S4x2, .f32⟩ : BufTy).Contents (Elt Ideal)) (x4 : (⟨S4, .f32⟩ : BufTy).Contents (Elt Ideal)) (x5 : (⟨S2x1, .f32⟩ : BufTy).Contents (Elt Ideal)) (x6 : (⟨S2, .f32⟩ : BufTy).Contents (Elt Ideal)) (x7 : (⟨S4x2, .f32⟩ : BufTy).Contents (Elt Ideal)) (x8 : (⟨S4, .f32⟩ : BufTy).Contents (Elt Ideal)) (x9 : (⟨S10x6, .f32⟩ : BufTy).Contents (Elt Ideal)) (x10 : (⟨S10, .f32⟩ : BufTy).Contents (Elt Ideal)) :
    val_main_v45 (F := Ideal) x0 x1 x2 x3 x4 x5 x6 x7 x8 x9 x10
      = Sgnn.node x0 (val_main_v38 (F := Ideal) x0 x1 x2 x3 x4 x5 x6) x7 x8 x9 x10 := by
  funext i
  obtain ⟨n, j, rfl⟩ : ∃ (n : Fin 500000) (j : Fin 14), i = ix2 n j := ⟨i 0, i 1, eq_ix2 i⟩
  rw [val_main_v45_apply, node_zero_apply]
  unfold Sgnn.node val_main_v44
  rw [Sgnn.ofFn2_ix2]
  by_cases h : j.val < 4
  · rw [dif_pos h, node_cat_left _ _ n j h, node_self_apply]
    rfl
  · rw [dif_neg h, node_cat_right _ _ n j h, node_agg_apply]
    rfl

end Cert.ReferenceIdeal.RefValue

end
-- ==== Proof.Bridge.lean ====
/-
  The kernel's two results and the reference's are the same functions of the arguments.

  Both programs take the start indices from the edge list by the same operations, and both add the new edge features
  into their start nodes by the same scatter-add of the same operands, so those parts agree as written. What is
  left is the specification's two laws: the edge layer's two arrangements agree when the node features and the first
  layer's weights are real numbers, and the node layer is one function on both sides.
-/
import proofs.«109827_j72567767433498_2_alg».proof.Proof.KernelSpec
import proofs.«109827_j72567767433498_2_alg».proof.Proof.RefEdge
import proofs.«109827_j72567767433498_2_alg».proof.Proof.RefNode

noncomputable section

namespace Cert.Bridge

open Idealize.ShloMosaic Cert.KernelIdeal Cert.KernelIdeal.Gen

/-- The column of start indices of the edges' start nodes is the same term in both programs. -/
theorem src_col (x2 : IVec S2x10000000 32) :
    KValue.startCol (KValue.srcRaw x2) = Cert.ReferenceIdeal.ReadP.val_main_v14 (F := Ideal) x2 := rfl

/-- The column of start indices of the edges' end nodes is the same term in both programs. -/
theorem dst_col (x2 : IVec S2x10000000 32) :
    KValue.startCol (KValue.dstRaw x2) = Cert.ReferenceIdeal.ReadP.val_main_v21 (F := Ideal) x2 := rfl

/-- The sum over each node's outgoing edges is the same operation on the same operands in both programs. -/
theorem segsum_eq (x0 : FVec Ideal S500000x2 .f32) (x1 : FVec Ideal S10000000x1 .f32) (x2 : IVec S2x10000000 32)
    (x3 : FVec Ideal S4x2 .f32) (x4 : FVec Ideal S4 .f32) (x5 : FVec Ideal S2x1 .f32) (x6 : FVec Ideal S2 .f32) :
    KValue.segsum x2 (Cert.ReferenceIdeal.ReadP.val_main_v30 (F := Ideal) x0 x1 x2 x3 x4 x5 x6)
      = Cert.ReferenceIdeal.ReadP.val_main_v38 (F := Ideal) x0 x1 x2 x3 x4 x5 x6 := rfl

/-- THE EDGE RESULT: the first launch's function of the arguments is the reference's edge result, when the node
    features and the first layer's weights are real. -/
theorem edge_result (x0 : FVec Ideal S500000x2 .f32) (x1 : FVec Ideal S10000000x1 .f32) (x2 : IVec S2x10000000 32)
    (x3 : FVec Ideal S4x2 .f32) (x4 : FVec Ideal S4 .f32) (x5 : FVec Ideal S2x1 .f32) (x6 : FVec Ideal S2 .f32)
    (hx : ∀ i, ∃ r : ℝ, x0 i = (r : EReal)) (hW : ∀ i, ∃ r : ℝ, x3 i = (r : EReal)) :
    EdgeValue.edgeOut (KValue.gathered x0 x2 x3) x1 (shapeCast _ x4 shapeCasts_S4_S1x4) x5 (shapeCast _ x6 shapeCasts_S2_S1x2)
      = Cert.ReferenceIdeal.ReadP.val_main_v30 (F := Ideal) x0 x1 x2 x3 x4 x5 x6 := by
  rw [KValue.edgeOut_eq, Sgnn.edgeK_eq_edgeR _ _ _ _ _ _ _ _ hx hW, Cert.ReferenceIdeal.RefValue.edge_eq, src_col, dst_col]

/-- THE NODE RESULT: the second launch's function of the arguments and of the summed edge result is the reference's
    node result. -/
theorem node_result (x0 : FVec Ideal S500000x2 .f32) (x1 : FVec Ideal S10000000x1 .f32) (x2 : IVec S2x10000000 32)
    (x3 : FVec Ideal S4x2 .f32) (x4 : FVec Ideal S4 .f32) (x5 : FVec Ideal S2x1 .f32) (x6 : FVec Ideal S2 .f32)
    (x7 : FVec Ideal S4x2 .f32) (x8 : FVec Ideal S4 .f32) (x9 : FVec Ideal S10x6 .f32) (x10 : FVec Ideal S10 .f32)
    (hx : ∀ i, ∃ r : ℝ, x0 i = (r : EReal)) (hW : ∀ i, ∃ r : ℝ, x3 i = (r : EReal)) :
    NodeValue.nodeOut x0 (KValue.segsum x2 (EdgeValue.edgeOut (KValue.gathered x0 x2 x3) x1
        (shapeCast _ x4 shapeCasts_S4_S1x4) x5 (shapeCast _ x6 shapeCasts_S2_S1x2)))
      x7 (shapeCast _ x8 shapeCasts_S4_S1x4) x9 (shapeCast _ x10 shapeCasts_S10_S1x10)
      = Cert.ReferenceIdeal.ReadP.val_main_v45 (F := Ideal) x0 x1 x2 x3 x4 x5 x6 x7 x8 x9 x10 := by
  rw [KValue.nodeOut_eq, edge_result x0 x1 x2 x3 x4 x5 x6 hx hW, segsum_eq, Cert.ReferenceIdeal.RefValue.node_eq]

end Cert.Bridge

end
-- ==== Proof.RefRun.lean ====
/-
  The reference program's run, at the extended reals.

  From any memory with zero counters, every weakly fair execution of the reference terminates; afterwards, on every
  device, the node-feature result `main_v45` and the edge-feature result `main_v30` hold the staged values
  `val_main_v45` and `val_main_v30` of the eleven arguments' launch contents, and the eleven arguments are unchanged.
-/
import proofs.«109827_j72567767433498_2_alg».proof.Proof.RefRunP

noncomputable section

namespace Cert.ReferenceIdeal.RefValue

open Cert.ReferenceIdeal Cert.ReferenceIdeal.Gen Idealize.ShloMosaic Idealize.ShloMosaic.TcCoe Idealize.SL.Sem Idealize.ShloMosaic.StableHlo

/-- THE REFERENCE'S RUN: both results at their staged values of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v45) = ReadP.val_main_v45 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v30) = ReadP.val_main_v30 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ValueP.run (F := Ideal) m ρ

end Cert.ReferenceIdeal.RefValue

end
-- ==== Proof.Finite.lean ====
/-
  The precondition makes the node features and the first layer's weights real.

  The precondition is a conjunction, over the ten float arguments, of "every entry has absolute value below +∞". An
  extended real whose absolute value is below +∞ is neither infinity, so it is a real number. Of the ten conjuncts the
  proof uses two: the node features and the weights of the edge layer's node-side linear map.
-/
import proofs.«109827_j72567767433498_2_alg».proof.Defs
import proofs.«109827_j72567767433498_2_alg».proof.Proof.Gen.Pre_finite_inputs
import proofs.«109827_j72567767433498_2_alg».proof.Proof.Gen.KernelIdeal
import Idealize.ShloMosaic.Lib.ReduceAll
import Idealize.ShloMosaic.Lib.ValueIdx
import Idealize.ShloMosaic.Lib.Affine

noncomputable section

namespace Cert.Finite

open Idealize.ShloMosaic Cert.Pre_finite_inputs

instance : Subsingleton S_.Idx := ⟨fun a b => funext fun d => d.elim0⟩

/-- An extended real whose absolute value compares below +∞ is a real number. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | coe r => exact ⟨r, rfl⟩
  | top =>
    exfalso; revert h
    show ¬ Ideal.cmp .olt (max (⊤ : EReal) (-⊤)) ⊤ = 1#1
    simp [Ideal.cmp]
  | bot =>
    exfalso; revert h
    show ¬ Ideal.cmp .olt (max (⊥ : EReal) (-⊥)) ⊤ = 1#1
    simp [Ideal.cmp]

/-- What the precondition says of the node features (argument 0) and of the edge layer's node-side weights
    (argument 3): every entry is real. -/
theorem fn_real (a0 : FVec Ideal S500000x2 .f32) (a1 : FVec Ideal S10000000x1 .f32) (a2 : IVec S2x10000000 32)
    (a3 : FVec Ideal S4x2 .f32) (a4 : FVec Ideal S4 .f32) (a5 : FVec Ideal S2x1 .f32) (a6 : FVec Ideal S2 .f32)
    (a7 : FVec Ideal S4x2 .f32) (a8 : FVec Ideal S4 .f32) (a9 : FVec Ideal S10x6 .f32) (a10 : FVec Ideal S10 .f32)
    (h : fn (F := Ideal) a0 a1 a2 a3 a4 a5 a6 a7 a8 a9 a10 = fun _ => 1#1) :
    (∀ i, ∃ r : ℝ, a0 i = (r : EReal)) ∧ (∀ i, ∃ r : ℝ, a3 i = (r : EReal)) := by
  have h0 := congrFun h ValueIdx.ix0
  dsimp only [fn, fn_part1, fn_part2] at h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h8, h12⟩ := IntOp.andi_eq_one.1 h0
  obtain ⟨h3, -⟩ := IntOp.andi_eq_one.1 h8
  refine ⟨fun i => real_of_abs_lt (a0 i) ?_, fun i => real_of_abs_lt (a3 i) ?_⟩
  · exact Host.reduce_andi_all _ _ _ _ _ h3 i
  · exact Host.reduce_andi_all _ _ _ _ _ h12 i

end Cert.Finite

end
-- ==== Proof.lean ====
/-
  The certificate: the kernel, its idealization and the reference all run and leave their arguments unchanged, and
  the idealized kernel and the idealized reference end with equal results on the extended reals.

  The program is one round of message passing on a graph: new edge features from each edge's attribute and its two end
  points' node features, then new node features from each node's own features and the sum of the new features of the
  edges that leave it. The kernel computes the edge layer's node-side linear map on the node table first and gathers its
  rows; the reference gathers the node features, adds the two end points', and applies the linear map. A linear map is
  additive on real numbers, and the precondition makes every float input real, so the two orders agree. The sum over
  outgoing edges is the same operation on equal operands in both programs. The node layer is the same sum of products on
  both sides, taken in two different orders.

  The three frames are the generated ones (the reference's is its run with the results dropped); the idealization
  rewrote nothing, so what it preserves is trivially true.
-/
import proofs.«109827_j72567767433498_2_alg».proof.Defs
import proofs.«109827_j72567767433498_2_alg».proof.Proof.Gen.Kernel
import proofs.«109827_j72567767433498_2_alg».proof.Proof.Gen.Kernel.Skeleton
import proofs.«109827_j72567767433498_2_alg».proof.Proof.Gen.Kernel.Launch
import proofs.«109827_j72567767433498_2_alg».proof.Proof.Gen.Kernel.Points
import proofs.«109827_j72567767433498_2_alg».proof.Proof.Gen.Kernel.Frame
import proofs.«109827_j72567767433498_2_alg».proof.Proof.Gen.KernelIdeal
import proofs.«109827_j72567767433498_2_alg».proof.Proof.Gen.KernelIdeal.Skeleton
import proofs.«109827_j72567767433498_2_alg».proof.Proof.Gen.KernelIdeal.Launch
import proofs.«109827_j72567767433498_2_alg».proof.Proof.Gen.KernelIdeal.Points
import proofs.«109827_j72567767433498_2_alg».proof.Proof.Gen.KernelIdeal.Frame
import proofs.«109827_j72567767433498_2_alg».proof.Proof.Gen.ReferenceIdeal
import proofs.«109827_j72567767433498_2_alg».proof.Proof.Gen.Pre_finite_inputs
import proofs.«109827_j72567767433498_2_alg».proof.Proof.Bridge
import proofs.«109827_j72567767433498_2_alg».proof.Proof.RefRun
import proofs.«109827_j72567767433498_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.RefValue.run m ρ)

/-- The idealization rewrote no operation. -/
theorem preserves : Cert.preserves_Kernel_KernelIdeal := trivial

/-- Both idealized programs end with the node result at the reference's staged node value and the edge result at the
    reference's staged edge value of the (equal) arguments. -/
theorem algebraic : Cert.algebraic_KernelIdeal_ReferenceIdeal := by
  intro m ρ m' ρ' hpre hagree
  refine ⟨_, _, Cert.KernelIdeal.KValue.run m ρ, ?_⟩
  refine (θ_run Cert.ReferenceIdeal.defs _ _).mono (fun r h c => ?_) (Cert.ReferenceIdeal.RefValue.run m' ρ')
  obtain ⟨a0, a1, a2, a3, a4, a5, a6, a7, a8, a9, a10⟩ := hagree c
  obtain ⟨hx, hW⟩ := Cert.Finite.fn_real _ _ _ _ _ _ _ _ _ _ _ (hpre c)
  refine ⟨(h c).1.trans ?_, (h c).2.1.trans ?_, (h c).2.2⟩
  · rw [a0, a1, a2, a3, a4, a5, a6, a7, a8, a9, a10]
    exact (Cert.Bridge.node_result _ _ _ _ _ _ _ _ _ _ _ hx hW).symm
  · rw [a0, a1, a2, a3, a4, a5, a6]
    exact (Cert.Bridge.edge_result _ _ _ _ _ _ _ hx hW).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
